-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128 .f32) (main_arg7 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) (main_arg6 : FVec F S128 .f32) (main_arg7 : FVec F S128 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S5000x512 : Shape := ⟨2, ![5000, 512]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 63
  | .vmem => 24
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S100000x128, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S1x64, .f32⟩
  | .hbm, ⟨62, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S10000x128, .f32⟩
  | .local _ .vmem, ⟨15, _⟩ => ⟨S10000x128, .f32⟩
  | .local _ .vmem, ⟨16, _⟩ => ⟨S128x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  dot_S5000x512_S512x128_S5000x128_1_0_0_1_n_n_wf : DotDims.WF S5000x512 S512x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v42) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 89
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000, .f32⟩
  | .hbm, ⟨82, _⟩ => ⟨S100000x1, .f32⟩
  | .hbm, ⟨83, _⟩ => ⟨S100000x1, .f32⟩
  | .hbm, ⟨84, _⟩ => ⟨S_, .f32⟩
  | .hbm, ⟨85, _⟩ => ⟨S100000x1, .f32⟩
  | .hbm, ⟨86, _⟩ => ⟨S100000x1, .f32⟩
  | .hbm, ⟨87, _⟩ => ⟨S100000x64, .f32⟩
  | .hbm, ⟨88, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_cst : Ref sig .tc := ⟨.hbm, 59, rfl⟩
abbrev main_call0_v0 : Ref sig .tc := ⟨.hbm, 60, rfl⟩
abbrev main_v43 : Ref sig .tc := ⟨.hbm, 61, rfl⟩
abbrev main_v44 : Ref sig .tc := ⟨.hbm, 62, rfl⟩
abbrev main_c_6 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call1_v0 : Ref sig .tc := ⟨.hbm, 79, rfl⟩
abbrev main_call1_cst : Ref sig .tc := ⟨.hbm, 80, rfl⟩
abbrev main_call1_v1 : Ref sig .tc := ⟨.hbm, 81, rfl⟩
abbrev main_call1_v2 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its result array named.

  The program is four tiled regions among stretches of host operations. Its buffer contents at the seven boundaries
  between those segments are a fold from the launch memory: a stretch of host operations applies the operations in
  order, and a region leaves each of its arrays at what the write-backs of all its grid points leave and every other
  buffer as it found it. The last boundary's contents are the final memory; read at the result's buffer they name the
  result array, and read at an argument's buffer they walk back to the launch memory.
-/
import proofs.«110722_j39247411151461_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result array at the last boundary's contents and every argument array as launched. -/
theorem run_named : θ_run defs (onTc (τ := τ) (main (F := F))) ⟨m, fun _ => 0, ρ⟩ (fun r => ∀ c : Dev nD,
      r.2.mem ((c.tc : Thread nD τ).loc main_v44) = W7 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v44 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.RunValue

end
-- ==== Proof.Spec.lean ====
/-
  The mathematics both programs compute, entry by entry, over the extended reals.

  A two-layer graph convolution. With X the node features, a layer multiplies by a weight matrix, sums the
  products along the edges into each edge's target node, and adds a bias. Between the layers every feature column is
  centred, scaled by the inverse square root of its variance plus a small positive number, scaled and shifted again
  by two learned vectors, and cut off below at zero. After the second layer every node's row is divided by its
  Euclidean norm, the norm kept above a small positive floor.

  This module states the three dense steps at an entry (p, q) of an A × C table:

  • `dotAt`: entry (p, q) of a product, the sum over k of x(p, k) · w(k, q);
  • `bnReluAt`: the centred, scaled and cut-off entry, from the aggregate and five 1 × C rows (bias, scale, shift,
    the column's mean, the column's variance);
  • `unitRowAt`: the biased entry divided by its row's norm.

  `tab` turns such an entry function into the table it describes.
-/
import Idealize.ShloMosaic.Lib.ValueIdx
import Idealize.ShloMosaic.PureOps.Ideal.Laws

noncomputable section

namespace Cert.Gcn

open Idealize.ShloMosaic Idealize.ShloMosaic.ValueIdx

/-- An a × b table of extended reals. -/
abbrev Tab (a b : Nat) : Type := (⟨2, ![a, b]⟩ : Shape).Idx → EReal

/-- The table whose entry (p, q) is `f p q`. -/
def tab {A B : Nat} (f : Fin A → Fin B → EReal) : Tab A B :=
  fun i => f ⟨(i 0).val, idx2_lt0 i⟩ ⟨(i 1).val, idx2_lt1 i⟩

theorem tab_ix2 {A B : Nat} (f : Fin A → Fin B → EReal) (p : Fin A) (q : Fin B) : tab f (ix2 p q) = f p q := rfl

theorem tab_apply {A B : Nat} (f : Fin A → Fin B → EReal) (i : (⟨2, ![A, B]⟩ : Shape).Idx) :
    tab f i = f ⟨(i 0).val, idx2_lt0 i⟩ ⟨(i 1).val, idx2_lt1 i⟩ := rfl

/-- The number added to a variance before its inverse square root: the single-precision number nearest 1e-5. -/
abbrev epsVar : EReal := Ideal.ofBits .f32 0x3727C5AC#32

/-- The floor under a row's norm: the single-precision number nearest 1e-12. -/
abbrev epsNorm : EReal := Ideal.ofBits .f32 0x2B8CBCCC#32

/-- The zero word's value (it is 0; kept as the word so that both programs' sums start from the same term). -/
abbrev zeroWord : EReal := Ideal.ofBits .f32 0x00000000#32

/-- Entry (p, q) of the product of an A × K and a K × B table. -/
def dotAt {A K B : Nat} (x : Tab A K) (w : Tab K B) (p : Fin A) (q : Fin B) : EReal :=
  ∑ k : Fin K, x (ix2 p k) * w (ix2 k q)

/-- Entry (p, q) after the bias, the centring by the column's mean, the scaling by the inverse square root of the
    column's variance plus `epsVar`, the learned scale and shift, and the cut-off at zero. -/
def bnReluAt {A C : Nat} (agg : Tab A C) (b g be mu var : Tab 1 C) (p : Fin A) (q : Fin C) : EReal :=
  max ((((agg (ix2 p q) + b (ix2 (0 : Fin 1) q)) - mu (ix2 (0 : Fin 1) q))
      * Ideal.rsqrt (var (ix2 (0 : Fin 1) q) + epsVar)) * g (ix2 (0 : Fin 1) q) + be (ix2 (0 : Fin 1) q)) zeroWord

/-- Entry (p, q) of the biased table divided by its row's Euclidean norm, the norm kept at or above `epsNorm`. -/
def unitRowAt {A C : Nat} (agg : Tab A C) (b : Tab 1 C) (p : Fin A) (q : Fin C) : EReal :=
  Ideal.div (agg (ix2 p q) + b (ix2 (0 : Fin 1) q))
    (max (Ideal.sqrt (zeroWord + ∑ k : Fin C,
      (agg (ix2 p k) + b (ix2 (0 : Fin 1) k)) * (agg (ix2 p k) + b (ix2 (0 : Fin 1) k)))) epsNorm)

end Cert.Gcn

end
-- ==== Proof.Fold.lean ====
/-
  The idealized kernel's result array, read back through the program to the launch arrays.

  The program alternates stretches of host operations with four tiled regions. Between them the buffers' contents are
  a fold from the launch memory, and this module reads that fold at the buffers that matter, one boundary at a time:

  • the first stretch cuts the edge table into its two rows, the edges' source nodes and target nodes;
  • region 0 leaves the product of the features with the first weight matrix;
  • the second stretch gathers that product's rows at the source nodes (a negative index counting from the end), adds
    them into a zero table at the target nodes, takes every column's mean and variance over the 100000 nodes, shifts
    the mean by the bias, and lays the five vectors out as rows;
  • region 1 leaves the centred, scaled and cut-off table, region 2 its product with the second weight matrix;
  • the third stretch gathers and adds along the edges again and lays the second bias out as a row;
  • region 3 leaves every row divided by its norm.

  What a region leaves is taken from four facts about the regions (each output array is one entry-by-entry function
  of the arrays the region found), assumed here and proved region by region elsewhere. A buffer that a stretch or a
  region does not write keeps its contents, which is how the index rows, the weights and the vectors reach the later
  boundaries unchanged.
-/
import proofs.«110722_j39247411151461_1_alg».proof.Proof.Gen.KernelIdeal.Frame
import proofs.«110722_j39247411151461_1_alg».proof.Proof.Spec
import Idealize.ShloMosaic.Lib.StableHlo.Run
import Idealize.ShloMosaic.Lib.Pipeline.Value
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## The host stretches' arithmetic, stage by stage -/

/-- The edges' source nodes: row 0 of the edge table. -/
def srcOf (x1 : (⟨S2x1600000, .i32⟩ : BufTy).Contents (Elt Ideal)) : (⟨S1600000, .i32⟩ : BufTy).Contents (Elt Ideal) :=
  shapeCast _ (extractStridedSlice S1x1600000 ![0, 0] x1 slices_S2x1600000_S1x1600000_0_0) shapeCasts_S1x1600000_S1600000

/-- The edges' target nodes: row 1 of the edge table. -/
def dstOf (x1 : (⟨S2x1600000, .i32⟩ : BufTy).Contents (Elt Ideal)) : (⟨S1600000, .i32⟩ : BufTy).Contents (Elt Ideal) :=
  shapeCast _ (extractStridedSlice S1x1600000 ![1, 0] x1 slices_S2x1600000_S1x1600000_1_0) shapeCasts_S1x1600000_S1600000

/-- The source nodes as a column, a negative index counted from the end (100000 added to it). -/
def srcCol (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The target nodes as a column. -/
def dstCol (d : (⟨S1600000, .i32⟩ : BufTy).Contents (Elt Ideal)) : (⟨S1600000x1, .i32⟩ : BufTy).Contents (Elt Ideal) :=
  broadcastInDim S1600000x1 ![0] bcast_S1600000_S1600000x1_0 d

/-- A 100000 × 128 table summed along the edges: its rows at the source nodes added into a zero table at the target
    nodes. -/
def agg128 (h : (⟨S100000x128, .f32⟩ : BufTy).Contents (Elt Ideal)) (s d : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32)) (dstCol d)
    (Host.gather gather_S100000x128_S1600000x1_S1600000x128_1_0_n_n_0_1_1128 h (srcCol s))

/-- A 100000 × 64 table summed along the edges. -/
def agg64 (h : (⟨S100000x64, .f32⟩ : BufTy).Contents (Elt Ideal)) (s d : (⟨S1600000, .i32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32)) (dstCol d)
    (Host.gather gather_S100000x64_S1600000x1_S1600000x64_1_0_n_n_0_1_164 h (srcCol s))

/-- Every column's mean over the 100000 rows. -/
def colMean (a : (⟨S100000x128, .f32⟩ : BufTy).Contents (Elt Ideal)) : (⟨S128, .f32⟩ : BufTy).Contents (Elt Ideal) :=
  Host.divf (Host.reduceAdd a (constant (F := Ideal) S_ .f32 0x00000000#32) reducesTo_S100000x128_S128_d0 h_S_)
    (broadcastInDim S128 ![] bcast_S_S128 (constant (F := Ideal) S_ .f32 0x47C35000#32))

/-- The table with every column's mean taken off. -/
def centred (a : (⟨S100000x128, .f32⟩ : BufTy).Contents (Elt Ideal)) : (⟨S100000x128, .f32⟩ : BufTy).Contents (Elt Ideal) :=
  subf (F := Ideal) (s := S100000x128) (φ := .f32) a
    (broadcastInDim S100000x128 ![0, 1] bcast_S1x128_S100000x128_0_1 (broadcastInDim S1x128 ![1] bcast_S128_S1x128_1 (colMean a)))

/-- Every column's variance: the mean of the centred entries' squares. -/
def colVar (a : (⟨S100000x128, .f32⟩ : BufTy).Contents (Elt Ideal)) : (⟨S128, .f32⟩ : BufTy).Contents (Elt Ideal) :=
  Host.divf (Host.reduceAdd (mulf (F := Ideal) (s := S100000x128) (φ := .f32) (centred a) (centred a)) (constant (F := Ideal) S_ .f32 0x00000000#32) reducesTo_S100000x128_S128_d0 h_S_)
    (broadcastInDim S128 ![] bcast_S_S128 (constant (F := Ideal) S_ .f32 0x47C35000#32))

/-- A vector of 128 entries laid out as a 1 × 128 row. -/
def row128 (v : (⟨S128, .f32⟩ : BufTy).Contents (Elt Ideal)) : (⟨S1x128, .f32⟩ : BufTy).Contents (Elt Ideal) :=
  shapeCast _ v shapeCasts_S128_S1x128

/-- A vector of 64 entries laid out as a 1 × 64 row. -/
def row64 (v : (⟨S64, .f32⟩ : BufTy).Contents (Elt Ideal)) : (⟨S1x64, .f32⟩ : BufTy).Contents (Elt Ideal) :=
  shapeCast _ v shapeCasts_S64_S1x64

/-! ## The whole program as one function of the launch arrays -/

/-- The first layer's aggregate. -/
def layer1 (x0 : (⟨S100000x512, .f32⟩ : BufTy).Contents (Elt Ideal)) (x1 : (⟨S2x1600000, .i32⟩ : BufTy).Contents (Elt Ideal))
    (x2 : (⟨S512x128, .f32⟩ : BufTy).Contents (Elt Ideal)) : (⟨S100000x128, .f32⟩ : BufTy).Contents (Elt Ideal) :=
  agg128 (Cert.Gcn.tab (Cert.Gcn.dotAt (A := 100000) (K := 512) (B := 128) x0 x2)) (srcOf x1) (dstOf x1)

/-- The first layer after the bias, the normalisation of every column and the cut-off. -/
def hidden (x0 : (⟨S100000x512, .f32⟩ : BufTy).Contents (Elt Ideal)) (x1 : (⟨S2x1600000, .i32⟩ : BufTy).Contents (Elt Ideal))
    (x2 : (⟨S512x128, .f32⟩ : BufTy).Contents (Elt Ideal)) (x3 x6 x7 : (⟨S128, .f32⟩ : BufTy).Contents (Elt Ideal)) :
    (⟨S100000x128, .f32⟩ : BufTy).Contents (Elt Ideal) :=
  Cert.Gcn.tab (Cert.Gcn.bnReluAt (A := 100000) (C := 128) (layer1 x0 x1 x2) (row128 x3) (row128 x6) (row128 x7)
    (row128 (addf (F := Ideal) (s := S128) (φ := .f32) (colMean (layer1 x0 x1 x2)) x3)) (row128 (colVar (layer1 x0 x1 x2))))

/-- The second layer's aggregate. -/
def layer2 (x0 : (⟨S100000x512, .f32⟩ : BufTy).Contents (Elt Ideal)) (x1 : (⟨S2x1600000, .i32⟩ : BufTy).Contents (Elt Ideal))
    (x2 : (⟨S512x128, .f32⟩ : BufTy).Contents (Elt Ideal)) (x3 : (⟨S128, .f32⟩ : BufTy).Contents (Elt Ideal))
    (x4 : (⟨S128x64, .f32⟩ : BufTy).Contents (Elt Ideal)) (x6 x7 : (⟨S128, .f32⟩ : BufTy).Contents (Elt Ideal)) :
    (⟨S100000x64, .f32⟩ : BufTy).Contents (Elt Ideal) :=
  agg64 (Cert.Gcn.tab (Cert.Gcn.dotAt (A := 100000) (K := 128) (B := 64) (hidden x0 x1 x2 x3 x6 x7) x4)) (srcOf x1) (dstOf x1)

/-- The result: the second layer, biased, every row divided by its norm. -/
def result (x0 : (⟨S100000x512, .f32⟩ : BufTy).Contents (Elt Ideal)) (x1 : (⟨S2x1600000, .i32⟩ : BufTy).Contents (Elt Ideal))
    (x2 : (⟨S512x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 x7 : (⟨S128, .f32⟩ : BufTy).Contents (Elt Ideal)) : (⟨S100000x64, .f32⟩ : BufTy).Contents (Elt Ideal) :=
  Cert.Gcn.tab (Cert.Gcn.unitRowAt (A := 100000) (C := 64) (layer2 x0 x1 x2 x3 x4 x6 x7) (row64 x5))

/-! ## The fold, boundary by boundary -/

variable (m : (ℓ : Loc nD τ sig) → Buf (Elt Ideal) ℓ) (ρ : Dev nD → PrngReg) (c : Dev nD)

/-- A buffer that no operation of a stretch writes keeps its contents over the stretch. -/
macro "stretch_keeps" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ### After the first stretch -/

theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  stretch_keeps hostOps0
theorem W1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  stretch_keeps hostOps0
theorem W1_arg3 : W1 m ρ c (Proc.devRef .tc main_arg3) = m ((c : Thread nD τ).loc main_arg3) := by
  show StableHlo.after hostOps0 (W0 m ρ c) (Proc.devRef .tc main_arg3) = W0 m ρ c (Proc.devRef .tc main_arg3)
  stretch_keeps hostOps0
theorem W1_arg4 : W1 m ρ c (Proc.devRef .tc main_arg4) = m ((c : Thread nD τ).loc main_arg4) := by
  show StableHlo.after hostOps0 (W0 m ρ c) (Proc.devRef .tc main_arg4) = W0 m ρ c (Proc.devRef .tc main_arg4)
  stretch_keeps hostOps0
theorem W1_arg5 : W1 m ρ c (Proc.devRef .tc main_arg5) = m ((c : Thread nD τ).loc main_arg5) := by
  show StableHlo.after hostOps0 (W0 m ρ c) (Proc.devRef .tc main_arg5) = W0 m ρ c (Proc.devRef .tc main_arg5)
  stretch_keeps hostOps0
theorem W1_arg6 : W1 m ρ c (Proc.devRef .tc main_arg6) = m ((c : Thread nD τ).loc main_arg6) := by
  show StableHlo.after hostOps0 (W0 m ρ c) (Proc.devRef .tc main_arg6) = W0 m ρ c (Proc.devRef .tc main_arg6)
  stretch_keeps hostOps0
theorem W1_arg7 : W1 m ρ c (Proc.devRef .tc main_arg7) = m ((c : Thread nD τ).loc main_arg7) := by
  show StableHlo.after hostOps0 (W0 m ρ c) (Proc.devRef .tc main_arg7) = W0 m ρ c (Proc.devRef .tc main_arg7)
  stretch_keeps hostOps0

/-- The source nodes, cut from the edge table as launched. -/
theorem W1_v1 : W1 m ρ c (Proc.devRef .tc main_v1) = srcOf (m ((c : Thread nD τ).loc main_arg1)) := by
  show StableHlo.after hostOps0 (W0 m ρ c) (Proc.devRef .tc main_v1) = _
  after_results
  rfl
/-- The target nodes, cut from the edge table as launched. -/
theorem W1_v3 : W1 m ρ c (Proc.devRef .tc main_v3) = dstOf (m ((c : Thread nD τ).loc main_arg1)) := by
  show StableHlo.after hostOps0 (W0 m ρ c) (Proc.devRef .tc main_v3) = _
  after_results
  rfl

/-! ### The four facts about the regions, as hypotheses -/

/-- Region 0 leaves the product of the two arrays it found. -/
def Dot1Fact : Prop := ∀ (V : (c : Dev nD) → (b : Ref sig .tc) → Buf (Elt Ideal) ((c : Thread nD τ).loc b)) (c : Dev nD),
  (dat0 (F := Ideal) V c).arrAt 2 cfg0.N
    = Cert.Gcn.tab (Cert.Gcn.dotAt (A := 100000) (K := 512) (B := 128) (V c main_arg0) (V c main_arg2))
/-- Region 1 leaves the centred, scaled and cut-off table of the aggregate and the five rows it found. -/
def BnReluFact : Prop := ∀ (V : (c : Dev nD) → (b : Ref sig .tc) → Buf (Elt Ideal) ((c : Thread nD τ).loc b)) (c : Dev nD),
  (dat1 (F := Ideal) V c).arrAt 6 cfg1.N
    = Cert.Gcn.tab (Cert.Gcn.bnReluAt (A := 100000) (C := 128) (V c main_v14) (V c main_v28) (V c main_v29) (V c main_v30) (V c main_v26) (V c main_v27))
/-- Region 2 leaves the product of the two arrays it found. -/
def Dot2Fact : Prop := ∀ (V : (c : Dev nD) → (b : Ref sig .tc) → Buf (Elt Ideal) ((c : Thread nD τ).loc b)) (c : Dev nD),
  (dat2 (F := Ideal) V c).arrAt 2 cfg2.N
    = Cert.Gcn.tab (Cert.Gcn.dotAt (A := 100000) (K := 128) (B := 64) (V c main_v31) (V c main_arg4))
/-- Region 3 leaves the biased aggregate with every row divided by its norm. -/
def UnitRowFact : Prop := ∀ (V : (c : Dev nD) → (b : Ref sig .tc) → Buf (Elt Ideal) ((c : Thread nD τ).loc b)) (c : Dev nD),
  (dat3 (F := Ideal) V c).arrAt 2 cfg3.N
    = Cert.Gcn.tab (Cert.Gcn.unitRowAt (A := 100000) (C := 64) (V c main_v42) (V c main_v43))

/-! ### After region 0 -/

theorem W2_v4 (h0 : Dot1Fact) : W2 m ρ c (Proc.devRef .tc main_v4)
    = Cert.Gcn.tab (Cert.Gcn.dotAt (A := 100000) (K := 512) (B := 128) (m ((c : Thread nD τ).loc main_arg0)) (m ((c : Thread nD τ).loc main_arg2))) := by
  refine (W2_arr m ρ c 2).trans ((h0 (V1 m ρ) c).trans ?_)
  rw [show V1 m ρ c main_arg0 = (m ((c : Thread nD τ).loc main_arg0)) from W1_arg0 m ρ c, show V1 m ρ c main_arg2 = (m ((c : Thread nD τ).loc main_arg2)) from W1_arg2 m ρ c]

theorem W2_v1 : W2 m ρ c (Proc.devRef .tc main_v1) = srcOf (m ((c : Thread nD τ).loc main_arg1)) :=
  (W2_of_ne m ρ c main_v1 (by decide)).trans (W1_v1 m ρ c)
theorem W2_v3 : W2 m ρ c (Proc.devRef .tc main_v3) = dstOf (m ((c : Thread nD τ).loc main_arg1)) :=
  (W2_of_ne m ρ c main_v3 (by decide)).trans (W1_v3 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)

/-! ### After the second stretch -/

/-- The first layer's aggregate. -/
theorem W3_v14 (h0 : Dot1Fact) : W3 m ρ c (Proc.devRef .tc main_v14) = layer1 (m ((c : Thread nD τ).loc main_arg0)) (m ((c : Thread nD τ).loc main_arg1)) (m ((c : Thread nD τ).loc main_arg2)) := by
  show StableHlo.after hostOps1 (W2 m ρ c) (Proc.devRef .tc main_v14) = _
  after_results_simp
  rw [W2_v4 m ρ c h0, W2_v1 m ρ c, W2_v3 m ρ c]
  rfl
/-- The columns' means, shifted by the bias, as a row. -/
theorem W3_v26 (h0 : Dot1Fact) : W3 m ρ c (Proc.devRef .tc main_v26)
    = row128 (addf (F := Ideal) (s := S128) (φ := .f32) (colMean (layer1 (m ((c : Thread nD τ).loc main_arg0)) (m ((c : Thread nD τ).loc main_arg1)) (m ((c : Thread nD τ).loc main_arg2)))) (m ((c : Thread nD τ).loc main_arg3))) := by
  show StableHlo.after hostOps1 (W2 m ρ c) (Proc.devRef .tc main_v26) = _
  after_results_simp
  rw [W2_v4 m ρ c h0, W2_v1 m ρ c, W2_v3 m ρ c, W2_arg3 m ρ c]
  rfl
/-- The columns' variances as a row. -/
theorem W3_v27 (h0 : Dot1Fact) : W3 m ρ c (Proc.devRef .tc main_v27) = row128 (colVar (layer1 (m ((c : Thread nD τ).loc main_arg0)) (m ((c : Thread nD τ).loc main_arg1)) (m ((c : Thread nD τ).loc main_arg2)))) := by
  show StableHlo.after hostOps1 (W2 m ρ c) (Proc.devRef .tc main_v27) = _
  after_results_simp
  rw [W2_v4 m ρ c h0, W2_v1 m ρ c, W2_v3 m ρ c]
  rfl
theorem W3_v28 : W3 m ρ c (Proc.devRef .tc main_v28) = row128 (m ((c : Thread nD τ).loc main_arg3)) := by
  show StableHlo.after hostOps1 (W2 m ρ c) (Proc.devRef .tc main_v28) = _
  after_results_simp
  rw [W2_arg3 m ρ c]
  rfl
theorem W3_v29 : W3 m ρ c (Proc.devRef .tc main_v29) = row128 (m ((c : Thread nD τ).loc main_arg6)) := by
  show StableHlo.after hostOps1 (W2 m ρ c) (Proc.devRef .tc main_v29) = _
  after_results_simp
  rw [W2_arg6 m ρ c]
  rfl
theorem W3_v30 : W3 m ρ c (Proc.devRef .tc main_v30) = row128 (m ((c : Thread nD τ).loc main_arg7)) := by
  show StableHlo.after hostOps1 (W2 m ρ c) (Proc.devRef .tc main_v30) = _
  after_results_simp
  rw [W2_arg7 m ρ c]
  rfl

theorem W3_v1 : W3 m ρ c (Proc.devRef .tc main_v1) = srcOf (m ((c : Thread nD τ).loc main_arg1)) := by
  refine Eq.trans ?_ (W2_v1 m ρ c)
  show StableHlo.after hostOps1 (W2 m ρ c) (Proc.devRef .tc main_v1) = W2 m ρ c (Proc.devRef .tc main_v1)
  stretch_keeps hostOps1
theorem W3_v3 : W3 m ρ c (Proc.devRef .tc main_v3) = dstOf (m ((c : Thread nD τ).loc main_arg1)) := by
  refine Eq.trans ?_ (W2_v3 m ρ c)
  show StableHlo.after hostOps1 (W2 m ρ c) (Proc.devRef .tc main_v3) = W2 m ρ c (Proc.devRef .tc main_v3)
  stretch_keeps hostOps1
theorem W3_arg4 : W3 m ρ c (Proc.devRef .tc main_arg4) = (m ((c : Thread nD τ).loc main_arg4)) := by
  refine Eq.trans ?_ (W2_arg4 m ρ c)
  show StableHlo.after hostOps1 (W2 m ρ c) (Proc.devRef .tc main_arg4) = W2 m ρ c (Proc.devRef .tc main_arg4)
  stretch_keeps hostOps1
theorem W3_arg5 : W3 m ρ c (Proc.devRef .tc main_arg5) = (m ((c : Thread nD τ).loc main_arg5)) := by
  refine Eq.trans ?_ (W2_arg5 m ρ c)
  show StableHlo.after hostOps1 (W2 m ρ c) (Proc.devRef .tc main_arg5) = W2 m ρ c (Proc.devRef .tc main_arg5)
  stretch_keeps hostOps1

/-! ### After region 1 -/

theorem W4_v31 (h0 : Dot1Fact) (h1 : BnReluFact) : W4 m ρ c (Proc.devRef .tc main_v31) = hidden (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  refine (W4_arr m ρ c 6).trans ((h1 (V3 m ρ) c).trans ?_)
  rw [show V3 m ρ c main_v14 = _ from W3_v14 m ρ c h0, show V3 m ρ c main_v28 = _ from W3_v28 m ρ c,
    show V3 m ρ c main_v29 = _ from W3_v29 m ρ c, show V3 m ρ c main_v30 = _ from W3_v30 m ρ c,
    show V3 m ρ c main_v26 = _ from W3_v26 m ρ c h0, show V3 m ρ c main_v27 = _ from W3_v27 m ρ c h0]
  rfl
theorem W4_v1 : W4 m ρ c (Proc.devRef .tc main_v1) = srcOf (m ((c : Thread nD τ).loc main_arg1)) :=
  (W4_of_ne m ρ c main_v1 (by decide)).trans (W3_v1 m ρ c)
theorem W4_v3 : W4 m ρ c (Proc.devRef .tc main_v3) = dstOf (m ((c : Thread nD τ).loc main_arg1)) :=
  (W4_of_ne m ρ c main_v3 (by decide)).trans (W3_v3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

/-! ### After region 2 -/

theorem W5_v32 (h0 : Dot1Fact) (h1 : BnReluFact) (h2 : Dot2Fact) : W5 m ρ c (Proc.devRef .tc main_v32)
    = Cert.Gcn.tab (Cert.Gcn.dotAt (A := 100000) (K := 128) (B := 64) (hidden (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (m ((c : Thread nD τ).loc main_arg4))) := by
  refine (W5_arr m ρ c 2).trans ((h2 (V4 m ρ) c).trans ?_)
  rw [show V4 m ρ c main_v31 = _ from W4_v31 m ρ c h0 h1, show V4 m ρ c main_arg4 = (m ((c : Thread nD τ).loc main_arg4)) from W4_arg4 m ρ c]
theorem W5_v1 : W5 m ρ c (Proc.devRef .tc main_v1) = srcOf (m ((c : Thread nD τ).loc main_arg1)) :=
  (W5_of_ne m ρ c main_v1 (by decide)).trans (W4_v1 m ρ c)
theorem W5_v3 : W5 m ρ c (Proc.devRef .tc main_v3) = dstOf (m ((c : Thread nD τ).loc main_arg1)) :=
  (W5_of_ne m ρ c main_v3 (by decide)).trans (W4_v3 m ρ c)
theorem W5_arg5 : W5 m ρ c (Proc.devRef .tc main_arg5) = (m ((c : Thread nD τ).loc main_arg5)) :=
  (W5_of_ne m ρ c main_arg5 (by decide)).trans (W4_arg5 m ρ c)

/-! ### After the third stretch -/

/-- The second layer's aggregate. -/
theorem W6_v42 (h0 : Dot1Fact) (h1 : BnReluFact) (h2 : Dot2Fact) : W6 m ρ c (Proc.devRef .tc main_v42)
    = layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  show StableHlo.after hostOps3 (W5 m ρ c) (Proc.devRef .tc main_v42) = _
  after_results_simp
  rw [W5_v32 m ρ c h0 h1 h2, W5_v1 m ρ c, W5_v3 m ρ c]
  rfl
theorem W6_v43 : W6 m ρ c (Proc.devRef .tc main_v43) = row64 (m ((c : Thread nD τ).loc main_arg5)) := by
  show StableHlo.after hostOps3 (W5 m ρ c) (Proc.devRef .tc main_v43) = _
  after_results_simp
  rw [W5_arg5 m ρ c]
  rfl

/-! ### After region 3: the result -/

/-- THE RESULT ARRAY: the last boundary's contents at the result's buffer are `result` of the launch arrays. -/
theorem W7_v44 (h0 : Dot1Fact) (h1 : BnReluFact) (h2 : Dot2Fact) (h3 : UnitRowFact) : W7 m ρ c (Proc.devRef .tc main_v44)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W7_arr m ρ c 2).trans ((h3 (V6 m ρ) c).trans ?_)
  rw [show V6 m ρ c main_v42 = _ from W6_v42 m ρ c h0 h1 h2, show V6 m ρ c main_v43 = _ from W6_v43 m ρ c]
  rfl

end Cert.KernelIdeal.Fold

end
-- ==== Proof.RegionDot.lean ====
/-
  The first dense step of the graph convolution, read off the kernel's first region: the array the region's
  output window fills is the product table of the node features and the first weight matrix, entry by entry the
  sum over k of x(p, k) · w(k, q). The region computes it in 20 blocks of 5000 rows; each block's entry is that sum
  over the block's rows, and the blocks tile the table.
-/
import proofs.«110722_j39247411151461_1_alg».proof.Proof.Gen.KernelIdeal.Frame
import proofs.«110722_j39247411151461_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DotValue

open Cert.KernelIdeal Cert.KernelIdeal.Gen Idealize.ShloMosaic Idealize.ShloMosaic.TcCoe Idealize.SL.Sem Idealize.ShloMosaic.ValueIdx Idealize.ShloMosaic.Pipeline

variable (V : (c : Dev nD) → (b : Ref sig .tc) → Buf (Elt Ideal) ((c : Thread nD τ).loc b))

/-! ## The first product: 20 blocks of 5000 rows of a 100000 × 512 table, times a 512 × 128 table -/

/-- The contraction of the first product: axis 1 of the left table against axis 0 of the right. -/
abbrev D0 := dot_S5000x512_S512x128_S5000x128_1_0_0_1_n_n

theorem lhs0_0 (i : S5000x128.Idx) (q : D0.contr.Idx) : (D0.lhsIdx i q 0).val = (i 0).val := by
  unfold DotDims.lhsIdx
  rw [dif_neg (show ¬(0 : Fin S5000x512.rank) ∈ D0.lhsBatch by decide), dif_pos (show (0 : Fin S5000x512.rank) ∈ D0.lhsNonContracting by decide)]
  rfl
theorem lhs0_1 (i : S5000x128.Idx) (q : D0.contr.Idx) : (D0.lhsIdx i q 1).val = (q ⟨0, by decide⟩).val :=
  D0.lhsIdx_val_of_single rfl i q
theorem rhs0_0 (i : S5000x128.Idx) (q : D0.contr.Idx) : (D0.rhsIdx i q 0).val = (q ⟨0, by decide⟩).val :=
  D0.rhsIdx_val_of_single rfl i q
theorem rhs0_1 (i : S5000x128.Idx) (q : D0.contr.Idx) : (D0.rhsIdx i q 1).val = (i 1).val := by
  unfold DotDims.rhsIdx
  rw [dif_neg (show ¬(1 : Fin S512x128.rank) ∈ D0.rhsBatch by decide), dif_pos (show (1 : Fin S512x128.rank) ∈ D0.rhsNonContracting by decide)]
  rfl

/-- Entry (p, q) of a block's product: the sum over k of the block's entry (p, k) times the weight's entry (k, q)
    (rounding the factors to a shorter format changes nothing over the extended reals, and the sum starts from zero). -/
theorem pay0_apply (x0 : Vec Ideal S5000x512 .f32) (x1 : Vec Ideal S512x128 .f32) (p : Fin 5000) (q : Fin 128) :
    k0_pay1 (F := Ideal) x0 x1 (ix2 p q) = ∑ k : Fin 512, x0 (ix2 p k) * x1 (ix2 k q) := by
  unfold k0_pay1
  refine (Ideal.matmul_constant_zero_apply D0 none _ _ (ix2 p q)).trans ?_
  rw [← Equiv.sum_comp (contrEquiv1 D0 512 rfl rfl).symm]
  refine Finset.sum_congr rfl fun k _ => ?_
  have hk := contrEquiv1_symm_val D0 512 rfl rfl k
  have el : D0.lhsIdx (ix2 p q) ((contrEquiv1 D0 512 rfl rfl).symm k) = ix2 p k := funext fun a => Fin.ext (by
    match a with
    | ⟨0, _⟩ => exact lhs0_0 _ _
    | ⟨1, _⟩ => exact (lhs0_1 _ _).trans hk)
  have er : D0.rhsIdx (ix2 p q) ((contrEquiv1 D0 512 rfl rfl).symm k) = ix2 k q := funext fun a => Fin.ext (by
    match a with
    | ⟨0, _⟩ => exact (rhs0_0 _ _).trans hk
    | ⟨1, _⟩ => exact rhs0_1 _ _)
  rw [el, er]
  rfl

theorem hz0 : (![0, 0] : Fin 2 → Nat) = fun _ => 0 := funext fun a => by fin_cases a <;> rfl

/-- The table the first product fills: entry (p, q) is the sum over k of x(p, k) · w(k, q), x and w the two
    argument tables as the region finds them. -/
abbrev G0 (c : Dev nD) : Cert.Gcn.Tab 100000 128 :=
  Cert.Gcn.tab (Cert.Gcn.dotAt (A := 100000) (K := 512) (B := 128) (V c main_arg0) (V c main_arg2))

/-- The index maps over the 20 grid points: point t takes block t of the rows of x and of the result, and the
    whole of w. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S5000x512) hz0, View.ld_unit_zero (S := S512x128) hz0]
  obtain ⟨e0, e1, e2, e3, e4, e5⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
      = Cert.Gcn.tab (Cert.Gcn.dotAt (A := 100000) (K := 512) (B := 128) (V c main_arg0) (V c main_arg2))
          (((cfg0.win 2).blk t).view.emb (ix2 p q))
  rw [pay0_apply, Cert.Gcn.tab_apply]
  unfold Cert.Gcn.dotAt
  refine Finset.sum_congr rfl fun k _ => ?_
  refine congrArg₂ (· * ·) ?_ ?_
  · show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 512 + 1 * k.val = k.val; omega
  · show V c main_arg2 (((cfg0.win 1).blk t).view.emb (ix2 k q)) = _
    refine congrArg (V c main_arg2) ?_
    funext a; apply Fin.ext
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega

/-- An index of the result is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every index of the result is in some point's block: row r is in the block of point r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show (i 0).val / 5000 < grid0.N; rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first product's array after its region: the product table of the two argument tables. -/
theorem dot1_array (c : Dev nD) :
    (dat0 (F := Ideal) V c).arrAt 2 cfg0.N
      = Cert.Gcn.tab (Cert.Gcn.dotAt (A := 100000) (K := 512) (B := 128) (V c main_arg0) (V c main_arg2)) :=
  (dat0 V c).arrAt_eq_of_cover 2 (G0 V c) (fun t _ => flushed0_eq V c t) cover0

end Cert.KernelIdeal.DotValue

end
-- ==== Proof.RegionDot2.lean ====
/-
  The second dense step of the graph convolution, read off the kernel's third region: the array the region's
  output window fills is the product table of the table the region before left and the second weight matrix,
  entry by entry the sum over k of h(p, k) · w(k, q). The region computes it in 10 blocks of 10000 rows; each
  block's entry is that sum over the block's rows, and the blocks tile the table.
-/
import proofs.«110722_j39247411151461_1_alg».proof.Proof.Gen.KernelIdeal.Frame
import proofs.«110722_j39247411151461_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DotValue

open Cert.KernelIdeal Cert.KernelIdeal.Gen Idealize.ShloMosaic Idealize.ShloMosaic.TcCoe Idealize.SL.Sem Idealize.ShloMosaic.ValueIdx Idealize.ShloMosaic.Pipeline

variable (V : (c : Dev nD) → (b : Ref sig .tc) → Buf (Elt Ideal) ((c : Thread nD τ).loc b))

/-! ## The second product: 10 blocks of 10000 rows of a 100000 × 128 table, times a 128 × 64 table -/

/-- The contraction of the second product: axis 1 of the left table against axis 0 of the right. -/
abbrev D2 := dot_S10000x128_S128x64_S10000x64_1_0_0_1_n_n

theorem lhs2_0 (i : S10000x64.Idx) (q : D2.contr.Idx) : (D2.lhsIdx i q 0).val = (i 0).val := by
  unfold DotDims.lhsIdx
  rw [dif_neg (show ¬(0 : Fin S10000x128.rank) ∈ D2.lhsBatch by decide), dif_pos (show (0 : Fin S10000x128.rank) ∈ D2.lhsNonContracting by decide)]
  rfl
theorem lhs2_1 (i : S10000x64.Idx) (q : D2.contr.Idx) : (D2.lhsIdx i q 1).val = (q ⟨0, by decide⟩).val :=
  D2.lhsIdx_val_of_single rfl i q
theorem rhs2_0 (i : S10000x64.Idx) (q : D2.contr.Idx) : (D2.rhsIdx i q 0).val = (q ⟨0, by decide⟩).val :=
  D2.rhsIdx_val_of_single rfl i q
theorem rhs2_1 (i : S10000x64.Idx) (q : D2.contr.Idx) : (D2.rhsIdx i q 1).val = (i 1).val := by
  unfold DotDims.rhsIdx
  rw [dif_neg (show ¬(1 : Fin S128x64.rank) ∈ D2.rhsBatch by decide), dif_pos (show (1 : Fin S128x64.rank) ∈ D2.rhsNonContracting by decide)]
  rfl

/-- Entry (p, q) of a block's product: the sum over k of the block's entry (p, k) times the weight's entry (k, q)
    (a cast to the same shape and the rounding of the factors to a shorter format change nothing over the extended
    reals, and the sum starts from zero). -/
theorem pay2_apply (x0 : Vec Ideal S10000x128 .f32) (x1 : Vec Ideal S128x64 .f32) (p : Fin 10000) (q : Fin 64) :
    k2_pay1 (F := Ideal) x0 x1 (ix2 p q) = ∑ k : Fin 128, x0 (ix2 p k) * x1 (ix2 k q) := by
  unfold k2_pay1
  rw [shapeCast_self]
  refine (Ideal.matmul_constant_zero_apply D2 none _ _ (ix2 p q)).trans ?_
  rw [← Equiv.sum_comp (contrEquiv1 D2 128 rfl rfl).symm]
  refine Finset.sum_congr rfl fun k _ => ?_
  have hk := contrEquiv1_symm_val D2 128 rfl rfl k
  have el : D2.lhsIdx (ix2 p q) ((contrEquiv1 D2 128 rfl rfl).symm k) = ix2 p k := funext fun a => Fin.ext (by
    match a with
    | ⟨0, _⟩ => exact lhs2_0 _ _
    | ⟨1, _⟩ => exact (lhs2_1 _ _).trans hk)
  have er : D2.rhsIdx (ix2 p q) ((contrEquiv1 D2 128 rfl rfl).symm k) = ix2 k q := funext fun a => Fin.ext (by
    match a with
    | ⟨0, _⟩ => exact (rhs2_0 _ _).trans hk
    | ⟨1, _⟩ => exact rhs2_1 _ _)
  rw [el, er]
  rfl

theorem hz2 : (![0, 0] : Fin 2 → Nat) = fun _ => 0 := funext fun a => by fin_cases a <;> rfl

/-- The table the second product fills: entry (p, q) is the sum over k of h(p, k) · w(k, q), h the table the
    region before left and w the argument table, as the region finds them. -/
abbrev G2 (c : Dev nD) : Cert.Gcn.Tab 100000 64 :=
  Cert.Gcn.tab (Cert.Gcn.dotAt (A := 100000) (K := 128) (B := 64) (V c main_v31) (V c main_arg4))

/-- The index maps over the 10 grid points: point t takes block t of the rows of h and of the result, and the
    whole of w. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the product table. -/
theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 V c).after 2 t) = _
  rw [after2_2]
  unfold out2_2
  rw [View.canon_unit_zero hz2]
  simp only [View.ld_unit_zero (S := S10000x128) hz2, View.ld_unit_zero (S := S128x64) hz2]
  obtain ⟨e0, e1, e2, e3, e4, e5⟩ := idx_facts2 t
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q)
      = Cert.Gcn.tab (Cert.Gcn.dotAt (A := 100000) (K := 128) (B := 64) (V c main_v31) (V c main_arg4))
          (((cfg2.win 2).blk t).view.emb (ix2 p q))
  rw [pay2_apply, Cert.Gcn.tab_apply]
  unfold Cert.Gcn.dotAt
  refine Finset.sum_congr rfl fun k _ => ?_
  refine congrArg₂ (· * ·) ?_ ?_
  · show V c main_v31 (((cfg2.win 0).blk t).view.emb (ix2 p k)) = _
    refine congrArg (V c main_v31) ?_
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  · show V c main_arg4 (((cfg2.win 1).blk t).view.emb (ix2 k q)) = _
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega

/-- An index of the result is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v32).slice (win2_2.rect t)).set ↔ _
  rw [View.set_slice_whole, Rect.mem_set_unit]
  exact Iff.rfl

/-- Every index of the result is in some point's block: row r is in the block of point r / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  obtain ⟨t, ht⟩ : ∃ t : Fin cfg2.N, t.val = (i 0).val / 10000 :=
    ⟨⟨(i 0).val / 10000, by show (i 0).val / 10000 < grid2.N; rw [hN]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The second product's array after its region: the product table of the table before it and the argument table. -/
theorem dot2_array (c : Dev nD) :
    (dat2 (F := Ideal) V c).arrAt 2 cfg2.N
      = Cert.Gcn.tab (Cert.Gcn.dotAt (A := 100000) (K := 128) (B := 64) (V c main_v31) (V c main_arg4)) :=
  (dat2 V c).arrAt_eq_of_cover 2 (G2 V c) (fun t _ => flushed2_eq V c t) cover2

end Cert.KernelIdeal.DotValue

end
-- ==== Proof.RegionRows.lean ====
/-
  Region 1 of the kernel program, read as a table. The region walks twenty blocks of 5000 rows; at each it
  adds the bias row to the block of the aggregate, centres by the row of column means, scales by the inverse
  square root of the row of column variances plus a small constant, scales and shifts by the two learned rows,
  and cuts off below at zero. Here: the body's value at an entry of its block, each input block as entries of
  the array it is cut from, what one point writes back, the blocks covering the table, and so the output array
  after the region as the table of `Cert.Gcn.bnReluAt`.
-/
import proofs.«110722_j39247411151461_1_alg».proof.Proof.Gen.KernelIdeal.Frame
import proofs.«110722_j39247411151461_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem offsets_zero1 : (![0, 0] : Fin 2 → Nat) = fun _ => 0 := funext fun a => by fin_cases a <;> rfl

/-! ## The normalised, cut-off table (region 1) -/

/-- The body's value at row `p`, column `q` of its block: the block's entry plus the bias, centred by the mean,
    scaled by the inverse square root of the variance plus the small constant, scaled and shifted by the two
    learned rows, and cut off below at zero. The five rows are read at their one row. -/
theorem bnRelu_payload_apply (x0 : Vec Ideal S5000x128 .f32) (b var mu g be : Vec Ideal S1x128 .f32)
    (p : Fin 5000) (q : Fin 128) :
    k1_pay1 (F := Ideal) x0 b var mu g be (ix2 p q)
      = max ((((x0 (ix2 p q) + b (ix2 (0 : Fin 1) q)) - mu (ix2 (0 : Fin 1) q))
          * Ideal.rsqrt (var (ix2 (0 : Fin 1) q) + Ideal.ofBits .f32 0x3727C5AC#32)) * g (ix2 (0 : Fin 1) q)
          + be (ix2 (0 : Fin 1) q)) (Ideal.ofBits .f32 0x00000000#32) := by
  unfold k1_pay1
  simp only [shapeCast_self, maximumf_apply, addf_apply, mulf_apply, subf_apply, broadcast_apply, broadcastTo_1b_ab_apply]
  rfl

/-- The grid of region 1 has twenty points. -/
theorem point_lt1 (t : Fin cfg1.N) : t.val < 20 := by
  have h : t.val < cfg1.N := t.isLt
  have hN : cfg1.N = 20 := N_1
  omega

/-- Row `p` of point `t`'s block is row `5000 t + p` of the table. -/
def row1 (t : Fin cfg1.N) (p : Fin 5000) : Fin 100000 :=
  ⟨t.val * 5000 + p.val, by have := point_lt1 t; have := p.isLt; omega⟩

/-- The index maps over the grid: the aggregate and the output move down one block of rows per point, the five
    rows stay where they are. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The output block's entry (p, q) sits at (5000 t + p, q) of the table. -/
theorem out_emb1 (t : Fin cfg1.N) (p : Fin 5000) (q : Fin 128) :
    ((cfg1.win 6).blk t).view.emb (ix2 p q) = ix2 (row1 t p) q := by
  obtain ⟨-, -, -, -, -, -, -, -, -, -, -, -, e0, e1⟩ := idx_facts1 t
  funext a
  apply Fin.ext
  match a with
  | ⟨0, _⟩ => show win1_6.index t (0 : Fin 2) * 5000 + 1 * p.val = t.val * 5000 + p.val; rw [e0]; omega
  | ⟨1, _⟩ => show win1_6.index t (1 : Fin 2) * 128 + 1 * q.val = q.val; rw [e1]; omega

/-- The aggregate's block at point `t`, entry (p, q), is the aggregate at (5000 t + p, q). -/
theorem agg_block1 (c : Dev nD) (t : Fin cfg1.N) (p : Fin 5000) (q : Fin 128) :
    (iblk1 V c 0 t : Vec Ideal S5000x128 .f32) (ix2 p q) = (V c main_v14 : Cert.Gcn.Tab 100000 128) (ix2 (row1 t p) q) := by
  obtain ⟨e0, e1, -⟩ := idx_facts1 t
  unfold iblk1
  rw [View.read_apply]
  show (V c main_v14 : Cert.Gcn.Tab 100000 128) _ = _
  refine congrArg (V c main_v14 : Cert.Gcn.Tab 100000 128) ?_
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- The bias row's block at any point is the bias row. -/
theorem bias_block1 (c : Dev nD) (t : Fin cfg1.N) (q : Fin 128) :
    (iblk1 V c 1 t : Vec Ideal S1x128 .f32) (ix2 (0 : Fin 1) q) = (V c main_v28 : Cert.Gcn.Tab 1 128) (ix2 (0 : Fin 1) q) := by
  obtain ⟨-, -, e0, e1, -⟩ := idx_facts1 t
  unfold iblk1
  rw [View.read_apply]
  show (V c main_v28 : Cert.Gcn.Tab 1 128) _ = _
  refine congrArg (V c main_v28 : Cert.Gcn.Tab 1 128) ?_
  funext a
  apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- The learned scale's block at any point is that row. -/
theorem scale_block1 (c : Dev nD) (t : Fin cfg1.N) (q : Fin 128) :
    (iblk1 V c 2 t : Vec Ideal S1x128 .f32) (ix2 (0 : Fin 1) q) = (V c main_v29 : Cert.Gcn.Tab 1 128) (ix2 (0 : Fin 1) q) := by
  obtain ⟨-, -, -, -, e0, e1, -⟩ := idx_facts1 t
  unfold iblk1
  rw [View.read_apply]
  show (V c main_v29 : Cert.Gcn.Tab 1 128) _ = _
  refine congrArg (V c main_v29 : Cert.Gcn.Tab 1 128) ?_
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- The learned shift's block at any point is that row. -/
theorem shift_block1 (c : Dev nD) (t : Fin cfg1.N) (q : Fin 128) :
    (iblk1 V c 3 t : Vec Ideal S1x128 .f32) (ix2 (0 : Fin 1) q) = (V c main_v30 : Cert.Gcn.Tab 1 128) (ix2 (0 : Fin 1) q) := by
  obtain ⟨-, -, -, -, -, -, e0, e1, -⟩ := idx_facts1 t
  unfold iblk1
  rw [View.read_apply]
  show (V c main_v30 : Cert.Gcn.Tab 1 128) _ = _
  refine congrArg (V c main_v30 : Cert.Gcn.Tab 1 128) ?_
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- The column means' block at any point is that row. -/
theorem mean_block1 (c : Dev nD) (t : Fin cfg1.N) (q : Fin 128) :
    (iblk1 V c 4 t : Vec Ideal S1x128 .f32) (ix2 (0 : Fin 1) q) = (V c main_v26 : Cert.Gcn.Tab 1 128) (ix2 (0 : Fin 1) q) := by
  obtain ⟨-, -, -, -, -, -, -, -, e0, e1, -⟩ := idx_facts1 t
  unfold iblk1
  rw [View.read_apply]
  show (V c main_v26 : Cert.Gcn.Tab 1 128) _ = _
  refine congrArg (V c main_v26 : Cert.Gcn.Tab 1 128) ?_
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- The column variances' block at any point is that row. -/
theorem var_block1 (c : Dev nD) (t : Fin cfg1.N) (q : Fin 128) :
    (iblk1 V c 5 t : Vec Ideal S1x128 .f32) (ix2 (0 : Fin 1) q) = (V c main_v27 : Cert.Gcn.Tab 1 128) (ix2 (0 : Fin 1) q) := by
  obtain ⟨-, -, -, -, -, -, -, -, -, -, e0, e1, -⟩ := idx_facts1 t
  unfold iblk1
  rw [View.read_apply]
  show (V c main_v27 : Cert.Gcn.Tab 1 128) _ = _
  refine congrArg (V c main_v27 : Cert.Gcn.Tab 1 128) ?_
  funext a
  apply Fin.ext
  match a with
  | ⟨0, _⟩ => show win1_5.index t (0 : Fin 2) * 1 + 1 * 0 = 0; rw [e0]
  | ⟨1, _⟩ => show win1_5.index t (1 : Fin 2) * 128 + 1 * q.val = q.val; rw [e1]; omega

/-- The table region 1 leaves: the normalised, cut-off entry at every (row, column). -/
abbrev bnReluTab (c : Dev nD) : Cert.Gcn.Tab 100000 128 :=
  Cert.Gcn.tab (Cert.Gcn.bnReluAt (A := 100000) (C := 128) (V c main_v14) (V c main_v28) (V c main_v29) (V c main_v30) (V c main_v26) (V c main_v27))

/-- What point `t` writes back is block `t` of that table. -/
theorem bnRelu_flushed_eq (c : Dev nD) (t : Fin cfg1.N) :
    (dat1 (F := Ideal) V c).flushed 6 t = ((cfg1.win 6).blk t).view.read (Elt Ideal) (bnReluTab V c) := by
  show (cfg1.win 6).cut (grid1.coords t) ((dat1 V c).after 6 t) = _
  rw [after1_6]
  unfold out1_6
  rw [View.canon_unit_zero offsets_zero1]
  simp only [View.ld_unit_zero (S := S5000x128) offsets_zero1, View.ld_unit_zero (S := S1x128) offsets_zero1]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 5 t) (iblk1 V c 4 t) (iblk1 V c 2 t) (iblk1 V c 3 t) (ix2 p q)
      = bnReluTab V c (((cfg1.win 6).blk t).view.emb (ix2 p q))
  rw [out_emb1, bnRelu_payload_apply, agg_block1 V c t p q, bias_block1 V c t q, scale_block1 V c t q,
    shift_block1 V c t q, mean_block1 V c t q, var_block1 V c t q]
  rfl

/-- An index of the table is in point `t`'s block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v31).slice (win1_6.rect t)).set ↔ _
  rw [View.set_slice_whole, Rect.mem_set_unit]
  exact Iff.rfl

/-- Every index of the table is in the block of the point its row falls in: row `r` in that of point `r / 5000`. -/
theorem cover1 (i : S100000x128.Idx) :
    ∃ t : Fin cfg1.N, (cfg1.win 6).flush t = true ∧ i ∈ ((cfg1.win 6).blk t).view.set := by
  have hN : cfg1.N = 20 := N_1
  have hi0 : (i 0).val < 100000 := (i 0).isLt
  have hi1 : (i 1).val < 128 := (i 1).isLt
  have ht : (i 0).val / 5000 < cfg1.N := by omega
  refine ⟨⟨(i 0).val / 5000, ht⟩, flush1_6 _, ?_⟩
  obtain ⟨-, -, -, -, -, -, -, -, -, -, -, -, e0, e1⟩ := idx_facts1 ⟨(i 0).val / 5000, ht⟩
  rw [mem_blk1]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e1]
    omega

/-- After region 1 its output array is the normalised, cut-off table of the arrays the region found. -/
theorem bnRelu_array (c : Dev nD) :
    (dat1 (F := Ideal) V c).arrAt 6 cfg1.N
      = Cert.Gcn.tab (Cert.Gcn.bnReluAt (A := 100000) (C := 128) (V c main_v14) (V c main_v28) (V c main_v29) (V c main_v30) (V c main_v26) (V c main_v27)) :=
  (dat1 (F := Ideal) V c).arrAt_eq_of_cover 6 (bnReluTab V c) (fun t _ => bnRelu_flushed_eq V c t) cover1

end Cert.KernelIdeal.RowValue

end
-- ==== Proof.RegionUnitRows.lean ====
/-
  Region 3 of the kernel program, read as a table. The region walks ten blocks of 10000 rows; at each it adds
  the bias row to the block of the aggregate and divides every row by its Euclidean norm, the norm kept at or
  above a small floor. Here: two layout steps of a row sum kept as a column, the row sum as a sum over the
  row's 64 entries, the body's value at an entry of its block, each input block as entries of the array it is
  cut from, what one point writes back, the blocks covering the table, and so the output array after the region
  as the table of `Cert.Gcn.unitRowAt`.
-/
import proofs.«110722_j39247411151461_1_alg».proof.Proof.Gen.KernelIdeal.Frame
import proofs.«110722_j39247411151461_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem offsets_zero3 : (![0, 0] : Fin 2 → Nat) = fun _ => 0 := funext fun a => by fin_cases a <;> rfl

/-! ## Two layout steps of a row sum kept as a column -/

/-- A vector cast to a column: an `[a]` array cast to `[a, 1]` reads, at `(p, u)`, the operand at `p`, whatever the
    unit coordinate `u`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column broadcast over many: an `[a, 1]` array broadcast to `[a, b]` reads, at `(p, c)`, the operand's one
    column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The rows divided by their norms (region 3) -/

/-- The sum along a row of a 10000 × 64 block, read at row `p`: the sum over the 64 columns. -/
theorem rowSum_apply (v : FVec Ideal S10000x64 .f32) (hφ : FKind.Formats .f32)
    (hacc : (0x00000000#32 : BitVec 32) = 0x00000000#32) (p : Fin 10000) :
    multiReduction (F := Ideal) .add [1] S10000 v 0x00000000#32 reduces_S10000x64_S10000 hφ hacc (ix1 p)
      = ∑ k : Fin 64, v (ix2 p k) := by
  refine (Ideal.multiReduction_add_single v 0x00000000#32 reduces_S10000x64_S10000 hφ hacc (ix1 p)).trans ?_
  refine Finset.sum_congr rfl fun k _ => congrArg v ?_
  funext c
  apply Fin.ext
  match c with
  | ⟨0, _⟩ => rfl
  | ⟨1, _⟩ => rfl

/-- The body's value at row `p`, column `q` of its block: the block's entry plus the bias, divided by the larger
    of the small floor and the square root of the row's sum of squares of such entries. -/
theorem unitRow_payload_apply (x0 : Vec Ideal S10000x64 .f32) (b : Vec Ideal S1x64 .f32) (p : Fin 10000) (q : Fin 64) :
    k3_pay1 (F := Ideal) x0 b (ix2 p q)
      = Ideal.div (x0 (ix2 p q) + b (ix2 (0 : Fin 1) q))
          (max (Ideal.sqrt (Ideal.ofBits .f32 0x00000000#32
              + ∑ k : Fin 64, (x0 (ix2 p k) + b (ix2 (0 : Fin 1) k)) * (x0 (ix2 p k) + b (ix2 (0 : Fin 1) k))))
            (Ideal.ofBits .f32 0x2B8CBCCC#32)) := by
  unfold k3_pay1
  simp only [shapeCast_self, divf_apply, addf_apply, maximumf_apply, broadcast_apply, broadcastTo_1b_ab_apply, broadcastTo_a1_ab_apply]
  refine congrArg (fun z => Ideal.div (x0 (ix2 p q) + b (ix2 (0 : Fin 1) q)) (max z (Ideal.ofBits .f32 0x2B8CBCCC#32))) ?_
  show Ideal.sqrt (shapeCast S10000x1 _ shapeCasts_S10000_S10000x1 (ix2 p (0 : Fin 1))) = _
  rw [shapeCast_a_a1_apply, rowSum_apply, Ideal.ofBits_zero_f32, zero_add]
  refine congrArg Ideal.sqrt (Finset.sum_congr rfl fun k _ => ?_)
  simp only [mulf_apply, addf_apply, broadcastTo_1b_ab_apply]

/-- The grid of region 3 has ten points. -/
theorem point_lt3 (t : Fin cfg3.N) : t.val < 10 := by
  have h : t.val < cfg3.N := t.isLt
  have hN : cfg3.N = 10 := N_3
  omega

/-- Row `p` of point `t`'s block is row `10000 t + p` of the table. -/
def row3 (t : Fin cfg3.N) (p : Fin 10000) : Fin 100000 :=
  ⟨t.val * 10000 + p.val, by have := point_lt3 t; have := p.isLt; omega⟩

/-- The index maps over the grid: the aggregate and the output move down one block of rows per point, the bias
    row stays where it is. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The output block's entry (p, q) sits at (10000 t + p, q) of the table. -/
theorem out_emb3 (t : Fin cfg3.N) (p : Fin 10000) (q : Fin 64) :
    ((cfg3.win 2).blk t).view.emb (ix2 p q) = ix2 (row3 t p) q := by
  obtain ⟨-, -, -, -, e0, e1⟩ := idx_facts3 t
  funext a
  apply Fin.ext
  match a with
  | ⟨0, _⟩ => show win3_2.index t (0 : Fin 2) * 10000 + 1 * p.val = t.val * 10000 + p.val; rw [e0]; omega
  | ⟨1, _⟩ => show win3_2.index t (1 : Fin 2) * 64 + 1 * q.val = q.val; rw [e1]; omega

/-- The aggregate's block at point `t`, entry (p, q), is the aggregate at (10000 t + p, q). -/
theorem agg_block3 (c : Dev nD) (t : Fin cfg3.N) (p : Fin 10000) (q : Fin 64) :
    (iblk3 V c 0 t : Vec Ideal S10000x64 .f32) (ix2 p q) = (V c main_v42 : Cert.Gcn.Tab 100000 64) (ix2 (row3 t p) q) := by
  obtain ⟨e0, e1, -⟩ := idx_facts3 t
  unfold iblk3
  rw [View.read_apply]
  show (V c main_v42 : Cert.Gcn.Tab 100000 64) _ = _
  refine congrArg (V c main_v42 : Cert.Gcn.Tab 100000 64) ?_
  funext a
  apply Fin.ext
  match a with
  | ⟨0, _⟩ => show win3_0.index t (0 : Fin 2) * 10000 + 1 * p.val = t.val * 10000 + p.val; rw [e0]; omega
  | ⟨1, _⟩ => show win3_0.index t (1 : Fin 2) * 64 + 1 * q.val = q.val; rw [e1]; omega

/-- The bias row's block at any point is the bias row. -/
theorem bias_block3 (c : Dev nD) (t : Fin cfg3.N) (q : Fin 64) :
    (iblk3 V c 1 t : Vec Ideal S1x64 .f32) (ix2 (0 : Fin 1) q) = (V c main_v43 : Cert.Gcn.Tab 1 64) (ix2 (0 : Fin 1) q) := by
  obtain ⟨-, -, e0, e1, -⟩ := idx_facts3 t
  unfold iblk3
  rw [View.read_apply]
  show (V c main_v43 : Cert.Gcn.Tab 1 64) _ = _
  refine congrArg (V c main_v43 : Cert.Gcn.Tab 1 64) ?_
  funext a
  apply Fin.ext
  match a with
  | ⟨0, _⟩ => show win3_1.index t (0 : Fin 2) * 1 + 1 * 0 = 0; rw [e0]
  | ⟨1, _⟩ => show win3_1.index t (1 : Fin 2) * 64 + 1 * q.val = q.val; rw [e1]; omega

/-- The table region 3 leaves: every biased row divided by its norm, the norm kept above the small floor. -/
abbrev unitRowTab (c : Dev nD) : Cert.Gcn.Tab 100000 64 :=
  Cert.Gcn.tab (Cert.Gcn.unitRowAt (A := 100000) (C := 64) (V c main_v42) (V c main_v43))

/-- What point `t` writes back is block `t` of that table: a row's sum of squares runs over the row's own 64
    entries, all of them in the point's block. -/
theorem unitRow_flushed_eq (c : Dev nD) (t : Fin cfg3.N) :
    (dat3 (F := Ideal) V c).flushed 2 t = ((cfg3.win 2).blk t).view.read (Elt Ideal) (unitRowTab V c) := by
  show (cfg3.win 2).cut (grid3.coords t) ((dat3 V c).after 2 t) = _
  rw [after3_2]
  unfold out3_2
  rw [View.canon_unit_zero offsets_zero3]
  simp only [View.ld_unit_zero (S := S10000x64) offsets_zero3, View.ld_unit_zero (S := S1x64) offsets_zero3]
  funext j
  obtain ⟨p, q, rfl⟩ : ∃ (p : Fin 10000) (q : Fin 64), j = ix2 p q := ⟨j 0, j 1, eq_ix2 j⟩
  show k3_pay1 (F := Ideal) (iblk3 V c 0 t) (iblk3 V c 1 t) (ix2 p q)
      = unitRowTab V c (((cfg3.win 2).blk t).view.emb (ix2 p q))
  rw [out_emb3, unitRow_payload_apply, agg_block3 V c t p q, bias_block3 V c t q]
  simp only [agg_block3 V c t p, bias_block3 V c t]
  rfl

/-- An index of the table is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v44).slice (win3_2.rect t)).set ↔ _
  rw [View.set_slice_whole, Rect.mem_set_unit]
  exact Iff.rfl

/-- Every index of the table is in the block of the point its row falls in: row `r` in that of point `r / 10000`. -/
theorem cover3 (i : S100000x64.Idx) :
    ∃ t : Fin cfg3.N, (cfg3.win 2).flush t = true ∧ i ∈ ((cfg3.win 2).blk t).view.set := by
  have hN : cfg3.N = 10 := N_3
  have hi0 : (i 0).val < 100000 := (i 0).isLt
  have hi1 : (i 1).val < 64 := (i 1).isLt
  have ht : (i 0).val / 10000 < cfg3.N := by omega
  refine ⟨⟨(i 0).val / 10000, ht⟩, flush3_2 _, ?_⟩
  obtain ⟨-, -, -, -, e0, e1⟩ := idx_facts3 ⟨(i 0).val / 10000, ht⟩
  rw [mem_blk3]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win3_2.index ⟨(i 0).val / 10000, ht⟩ (1 : Fin 2) * 64 ≤ (i 1).val ∧ (i 1).val < win3_2.index ⟨(i 0).val / 10000, ht⟩ (1 : Fin 2) * 64 + 64
    rw [e1]
    omega

/-- After region 3 its output array is the table of the biased rows divided by their norms, of the arrays the
    region found. -/
theorem unitRow_array (c : Dev nD) :
    (dat3 (F := Ideal) V c).arrAt 2 cfg3.N
      = Cert.Gcn.tab (Cert.Gcn.unitRowAt (A := 100000) (C := 64) (V c main_v42) (V c main_v43)) :=
  (dat3 (F := Ideal) V c).arrAt_eq_of_cover 2 (unitRowTab V c) (fun t _ => unitRow_flushed_eq V c t) cover3

end Cert.KernelIdeal.RowValue

end
-- ==== Proof.KernelValue.lean ====
/-
  The idealized kernel's run, its result array stated as one function of the launch arrays.

  The run names the result array as the last boundary's contents; the fold through the program reads those contents
  as the two-layer graph convolution `Fold.result` of the arrays as launched, each region's part supplied by the fact
  proved for that region: the two products, the normalised and cut-off hidden layer, the rows divided by their norms.
-/
import proofs.«110722_j39247411151461_1_alg».proof.Proof.KernelRun
import proofs.«110722_j39247411151461_1_alg».proof.Proof.Fold
import proofs.«110722_j39247411151461_1_alg».proof.Proof.RegionDot
import proofs.«110722_j39247411151461_1_alg».proof.Proof.RegionDot2
import proofs.«110722_j39247411151461_1_alg».proof.Proof.RegionRows
import proofs.«110722_j39247411151461_1_alg».proof.Proof.RegionUnitRows

set_option maxRecDepth 16384

noncomputable section

namespace Cert.KernelIdeal.ValueRun

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Every weakly fair execution terminates, nothing faulting, with the result array at `Fold.result` of the launch
    arrays and every argument array as launched. -/
theorem run : θ_run defs (onTc (τ := τ) (main (F := Ideal))) ⟨m, fun _ => 0, ρ⟩ (fun r => ∀ c : Dev nD,
      r.2.mem ((c.tc : Thread nD τ).loc main_v44)
        = Cert.KernelIdeal.Fold.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (Cert.KernelIdeal.Fold.W7_v44 m ρ c
      (fun V c => Cert.KernelIdeal.DotValue.dot1_array V c) (fun V c => Cert.KernelIdeal.RowValue.bnRelu_array V c)
      (fun V c => Cert.KernelIdeal.DotValue.dot2_array V c) (fun V c => Cert.KernelIdeal.RowValue.unitRow_array V c)), (h c).2⟩)
    (Cert.KernelIdeal.RunValue.run_named (F := Ideal) m ρ)

end Cert.KernelIdeal.ValueRun

end
-- ==== Proof.BridgeEdges.lean ====
/-
  The reference's edge sums are the kernel program's edge sums.

  Both programs cut the edge table into source and target nodes, count a negative source index from the end, gather a
  table's rows at the sources and add them into a zero table at the targets — the same host operations with the same
  dimension numbers, written once in each program. So the reference's two aggregates are the fold's `agg128` and
  `agg64` of the reference's own two products, by unfolding both sides.
-/
import proofs.«110722_j39247411151461_1_alg».proof.Proof.Gen.ReferenceIdeal.Read
import proofs.«110722_j39247411151461_1_alg».proof.Proof.Fold

set_option maxRecDepth 16384

noncomputable section

namespace Cert.Bridge

open Idealize.ShloMosaic
open Cert.ReferenceIdeal.Read Cert.KernelIdeal.Fold

variable (x0 : (⟨Cert.KernelIdeal.S100000x512, .f32⟩ : BufTy).Contents (Elt Ideal)) (x1 : (⟨Cert.KernelIdeal.S2x1600000, .i32⟩ : BufTy).Contents (Elt Ideal)) (x2 : (⟨Cert.KernelIdeal.S512x128, .f32⟩ : BufTy).Contents (Elt Ideal))
  (x3 : (⟨Cert.KernelIdeal.S128, .f32⟩ : BufTy).Contents (Elt Ideal)) (x4 : (⟨Cert.KernelIdeal.S128x64, .f32⟩ : BufTy).Contents (Elt Ideal)) (x5 : (⟨Cert.KernelIdeal.S64, .f32⟩ : BufTy).Contents (Elt Ideal)) (x6 x7 : (⟨Cert.KernelIdeal.S128, .f32⟩ : BufTy).Contents (Elt Ideal))

/-- The first layer's aggregate in the reference: the edge sum of its first product. -/
theorem agg1_eq : val_main_v14 (F := Ideal) x0 x1 x2 = agg128 (val_main_v4 (F := Ideal) x0 x2) (srcOf x1) (dstOf x1) := rfl

/-- The second layer's aggregate in the reference: the edge sum of its second product. -/
theorem agg2_eq : val_main_v54 (F := Ideal) x0 x1 x2 x3 x4 x6 x7
    = agg64 (val_main_v44 (F := Ideal) x0 x1 x2 x3 x4 x6 x7) (srcOf x1) (dstOf x1) := rfl

end Cert.Bridge

end
-- ==== Proof.LibEdgeRows.lean ====
/-
  A table's rows gathered by an index column, and rows added into a table at an index column, read at an entry — a
  general module: the lemmas are general in the three extents and, for the gather, in the element type.

  The table is N × C, the index column is E × 1 and the rows handed around are E × C.

  • Gather (what `table[idx]` along the first axis lowers to): entry (e, c) of the result is the table's entry
    (row, c), the row being index e read as a signed integer and clamped into [0, N − 1] (`gather_rows_apply`).
  • Scatter-add (what a segment sum lowers to): update row e lands on table row idx e, read as a signed integer and
    NOT clamped; a row whose index is outside [0, N) is dropped. So update entry (e, c') lands on table entry (n, c)
    exactly when idx e = n and c' = c (`rows_land_iff`), and over the extended reals entry (n, c) of the result is the
    table's entry plus the sum, over the rows e whose index is n, of update entry (e, c) (`scatterAdd_rows_apply`).
-/
import Idealize.ShloMosaic.Lib.ValueIdx
import Idealize.ShloMosaic.PureOps.Ideal.Laws

noncomputable section

namespace Cert.LibEdgeRows

open Idealize.ShloMosaic Idealize.ShloMosaic.ValueIdx

/-! ## Rows gathered -/

/-- The dimension numbers of a gather of whole rows: the result's second axis is the row's, the table's first axis is
    collapsed and indexed by the one component of each start index. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that index e selects: the index read signed and clamped into [0, N − 1]. -/
def rowOf {E w : Nat} (N : Nat) (hN : 0 < N) (idx : IVec ⟨2, ![E, 1]⟩ w) (e : Fin E) : Fin N :=
  ⟨min (idx (ix2 e (0 : Fin 1))).toInt.toNat (N - 1), by omega⟩

/-- THE GATHER READ AT (e, c): the table at (row selected by index e, c). -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf N hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (by show ¬ (1 : Fin 2) ∈ ([0] : List (Fin 2)); decide)]
    rw [hst]
    simp only [Nat.add_zero, Nat.zero_add]
    unfold GatherDims.offCoord
    rw [dif_pos (by show (1 : Fin 2) ∈ (List.finRange 2).filter (fun a => a ∉ (([0] : List (Fin 2)) ++ [])); decide)]
    rfl

/-! ## Rows added in -/

/-- The dimension numbers of a scatter of whole rows: the updates' second axis is the row's, the table's first axis
    is the inserted one, indexed by the one component of each scatter index. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

theorem start_rows_zero : (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_rows_one : (rowScatterDims N E C wf).start (ix2 e c) idx 1 = 0 := by
  unfold ScatterDims.start
  rw [dif_neg (by show ¬ (1 : Fin 2) ∈ ([0] : List (Fin 2)); decide)]

theorem window_rows_zero : (rowScatterDims N E C wf).window (ix2 e c) 0 = 0 := by
  unfold ScatterDims.window
  rw [dif_neg (by show ¬ (0 : Fin 2) ∈ (List.finRange 2).filter (fun a => a ∉ ([0] : List (Fin 2))); decide)]

theorem window_rows_one : (rowScatterDims N E C wf).window (ix2 e c) 1 = c.val := by
  unfold ScatterDims.window
  rw [dif_pos (by show (1 : Fin 2) ∈ (List.finRange 2).filter (fun a => a ∉ ([0] : List (Fin 2))); decide)]
  rfl

/-- Update entry (e, c) lands on table entry (n, q) exactly when index e, read signed, is n, and c = q. -/
theorem rows_land_iff (n : Fin N) (q : Fin C) :
    (rowScatterDims N E C wf).resultIdx? (ix2 e c) idx = some (ix2 n q)
      ↔ (idx (ix2 e (0 : Fin 1))).toInt = (n.val : Int) ∧ c = q := by
  unfold ScatterDims.resultIdx?
  split
  · rename_i h
    rw [Option.some.injEq]
    constructor
    · intro hf
      have h0 := congrArg (fun f => (f 0).val) hf
      have h1 := congrArg (fun f => (f 1).val) hf
      simp only [start_rows_zero, window_rows_zero, start_rows_one, window_rows_one] at h0 h1
      have g0 := (h 0).1
      rw [start_rows_zero, window_rows_zero] at g0
      refine ⟨?_, Fin.ext ?_⟩
      · have : ((idx (ix2 e (0 : Fin 1))).toInt + ((0 : Nat) : Int)).toNat = n.val := h0
        omega
      · have : ((0 : Int) + (c.val : Int)).toNat = q.val := h1
        omega
    · rintro ⟨hn, rfl⟩
      funext a
      refine Fin.ext ?_
      match a with
      | ⟨0, _⟩ =>
        show ((rowScatterDims N E C wf).start (ix2 e c) idx 0 + ((rowScatterDims N E C wf).window (ix2 e c) 0 : Int)).toNat = n.val
        rw [start_rows_zero, window_rows_zero, hn]; omega
      | ⟨1, _⟩ =>
        show ((rowScatterDims N E C wf).start (ix2 e c) idx 1 + ((rowScatterDims N E C wf).window (ix2 e c) 1 : Int)).toNat = c.val
        rw [start_rows_one, window_rows_one]; omega
  · rename_i h
    constructor
    · intro hf; exact absurd hf (by simp)
    · rintro ⟨hn, rfl⟩
      exfalso
      apply h
      intro a
      match a with
      | ⟨0, _⟩ =>
        show 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int) < (N : Int)
        rw [start_rows_zero, window_rows_zero, hn]
        have := n.isLt
        omega
      | ⟨1, _⟩ =>
        show 0 ≤ (rowScatterDims N E C wf).start (ix2 e c) idx 1 + ((rowScatterDims N E C wf).window (ix2 e c) 1 : Int)
          ∧ (rowScatterDims N E C wf).start (ix2 e c) idx 1 + ((rowScatterDims N E C wf).window (ix2 e c) 1 : Int) < (C : Int)
        rw [start_rows_one, window_rows_one]
        have := c.isLt
        omega

/-- THE SCATTER-ADD READ AT (n, q), over the extended reals: the table's entry plus the sum, over the update rows
    whose index is n, of their entry in column q. -/
theorem scatterAdd_rows_apply (x : (⟨2, ![N, C]⟩ : Shape).Idx → EReal) (upd : (⟨2, ![E, C]⟩ : Shape).Idx → EReal)
    (n : Fin N) (q : Fin C) :
    Ideal.hostScatterAdd (rowScatterDims N E C wf) x idx upd (ix2 n q)
      = x (ix2 n q) + ∑ e : Fin E, if (idx (ix2 e (0 : Fin 1))).toInt = (n.val : Int) then upd (ix2 e q) else 0 := by
  unfold Ideal.hostScatterAdd
  congr 1
  rw [Finset.sum_filter, sum_idx2]
  refine Finset.sum_congr rfl fun e _ => ?_
  simp only [rows_land_iff]
  by_cases hn : (idx (ix2 e (0 : Fin 1))).toInt = (n.val : Int)
  · simp only [hn, true_and, if_true]
    rw [Finset.sum_ite_eq' Finset.univ q (fun c => upd (ix2 e c))]
    simp
  · simp only [hn, false_and, if_false, Finset.sum_const_zero]

end Scatter

end Cert.LibEdgeRows

end
-- ==== Proof.LibEdgeLinear.lean ====
/-
  Summing selected rows and then multiplying by a column is multiplying each row by the column and then summing the
  selected products — a general module: it depends on Mathlib only (through the ideal float instance's imports).

  For real numbers a(e, k) and w(k), and any selection D of the rows e,

      Σ over e with D e of ( Σ over k of a(e, k) · w(k) )  =  Σ over k of ( Σ over e with D e of a(e, k) ) · w(k),

  by distributing w(k) over the inner sum and exchanging the two sums. Over the extended reals the law is stated for
  entries that are real numbers (it fails at the infinities, where a factor does not distribute over a sum), and it is
  proved by moving both sides into the reals: a finite sum of real numbers read in the extended reals is the real
  sum read there (`coe_sum`).
-/
import Idealize.ShloMosaic.PureOps.Ideal.Laws

namespace Cert.LibEdgeLinear

open scoped BigOperators

/-- A finite sum of real numbers, read in the extended reals, is the sum of the numbers read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A selected real number, read in the extended reals. -/
theorem coe_ite (p : Prop) [Decidable p] (x : ℝ) : ((if p then x else 0 : ℝ) : EReal) = if p then (x : EReal) else 0 := by
  split <;> simp

/-- The law over the reals. -/
theorem select_sum_mul_real {E K : Nat} (D : Fin E → Prop) [DecidablePred D] (a : Fin E → Fin K → ℝ) (w : Fin K → ℝ) :
    (∑ e, if D e then ∑ k, a e k * w k else 0) = ∑ k, (∑ e, if D e then a e k else 0) * w k := by
  simp only [Finset.sum_mul]
  rw [Finset.sum_comm]
  refine Finset.sum_congr rfl fun e _ => ?_
  by_cases h : D e
  · simp only [h, if_true]
  · simp only [h, if_false, zero_mul, Finset.sum_const_zero]

/-- THE LAW over the extended reals, for real entries. -/
theorem select_sum_mul {E K : Nat} (D : Fin E → Prop) [DecidablePred D] (a : Fin E → Fin K → EReal) (w : Fin K → EReal)
    (ha : ∀ e k, ∃ r : ℝ, a e k = (r : EReal)) (hw : ∀ k, ∃ r : ℝ, w k = (r : EReal)) :
    (∑ e, if D e then ∑ k, a e k * w k else 0) = ∑ k, (∑ e, if D e then a e k else 0) * w k := by
  choose a' ha' using ha
  choose w' hw' using hw
  have ea : a = fun e k => ((a' e k : ℝ) : EReal) := funext fun e => funext fun k => ha' e k
  have ew : w = fun k => ((w' k : ℝ) : EReal) := funext fun k => hw' k
  subst ea ew
  have hl : (∑ e, if D e then ∑ k, ((a' e k : ℝ) : EReal) * ((w' k : ℝ) : EReal) else 0)
      = ((∑ e, if D e then ∑ k, a' e k * w' k else 0 : ℝ) : EReal) := by
    rw [coe_sum]
    refine Finset.sum_congr rfl fun e _ => ?_
    rw [coe_ite, coe_sum]
    simp only [EReal.coe_mul]
  have hr : (∑ k, (∑ e, if D e then ((a' e k : ℝ) : EReal) else 0) * ((w' k : ℝ) : EReal))
      = ((∑ k, (∑ e, if D e then a' e k else 0) * w' k : ℝ) : EReal) := by
    rw [coe_sum]
    refine Finset.sum_congr rfl fun k _ => ?_
    rw [EReal.coe_mul, coe_sum]
    simp only [coe_ite]
  rw [hl, hr, select_sum_mul_real]

end Cert.LibEdgeLinear
-- ==== Proof.StageReads.lean ====
/-
  The host stretches' stages read at an entry: a column's mean and variance as sums over the 100000 rows divided by
  the number of rows, the centred table as the entry less its column's mean, and a vector laid out as a row.
-/
import proofs.«110722_j39247411151461_1_alg».proof.Proof.Fold
import proofs.«110722_j39247411151461_1_alg».proof.Proof.LibEdgeRows
import proofs.«110722_j39247411151461_1_alg».proof.Proof.LibEdgeLinear
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StageReads

open Cert.KernelIdeal Cert.KernelIdeal.Gen Cert.KernelIdeal.Fold Idealize.ShloMosaic Idealize.ShloMosaic.ValueIdx

/-! ## Column sums, means and variances -/

/-- A column's sum over the 100000 rows, started from the zero word: entry q is the word's value plus the sum over
    k of the table's entry (k, q). -/
theorem colSum_apply (y : (⟨S100000x128, .f32⟩ : BufTy).Contents (Elt Ideal)) (q : Fin 128) :
    Host.reduceAdd y (constant (F := Ideal) S_ .f32 0x00000000#32) reducesTo_S100000x128_S128_d0 h_S_ (ix1 q)
      = Ideal.ofBits .f32 0x00000000#32 + ∑ k : Fin 100000, y (ix2 k q) := by
  simp only [Host.reduceAdd, Ideal.hostReduceAdd_def]
  rw [Ideal.hostReduceAdd_single reducesTo_S100000x128_S128_d0 (by decide)]
  refine congrArg₂ (· + ·) rfl (Finset.sum_congr rfl fun k _ => ?_)
  exact congrArg y (funext fun a => Fin.ext (by match a with | ⟨0, _⟩ => rfl | ⟨1, _⟩ => rfl))

/-- The number of rows, as a vector of 128 equal entries: every entry is the word's value. -/
theorem rowCount_apply (q : Fin 128) :
    broadcastInDim S128 ![] bcast_S_S128 (constant (F := Ideal) S_ .f32 0x47C35000#32) (ix1 q)
      = Ideal.ofBits .f32 0x47C35000#32 :=
  broadcastInDim_apply _ bcast_S_S128 (constant (F := Ideal) S_ .f32 0x47C35000#32) (ix1 q) (fun a => a.elim0)
    (fun a => a.elim0)

/-- Column q's mean: its sum over the rows divided by the number of rows. -/
theorem colMean_apply (a : (⟨S100000x128, .f32⟩ : BufTy).Contents (Elt Ideal)) (q : Fin 128) :
    colMean a (ix1 q) = Ideal.div (Ideal.ofBits .f32 0x00000000#32 + ∑ k : Fin 100000, a (ix2 k q))
      (Ideal.ofBits .f32 0x47C35000#32) := by
  unfold colMean
  show Ideal.div (Host.reduceAdd a (constant (F := Ideal) S_ .f32 0x00000000#32) reducesTo_S100000x128_S128_d0 h_S_ (ix1 q))
    (broadcastInDim S128 ![] bcast_S_S128 (constant (F := Ideal) S_ .f32 0x47C35000#32) (ix1 q)) = _
  rw [colSum_apply, rowCount_apply]

/-- A vector of 128 entries repeated down the 100000 rows, read at (p, q): the vector's entry q. -/
theorem downRows_apply (y : (⟨S128, .f32⟩ : BufTy).Contents (Elt Ideal)) (p : Fin 100000) (q : Fin 128) :
    broadcastInDim S100000x128 ![0, 1] bcast_S1x128_S100000x128_0_1 (broadcastInDim S1x128 ![1] bcast_S128_S1x128_1 y) (ix2 p q)
      = y (ix1 q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 y (ix2 (0 : Fin 1) q) (ix1 q) (fun a => match a with
    | ⟨0, _⟩ => by show q.val = if (128 : Nat) = 1 then 0 else q.val; rw [if_neg (by decide)])

/-- Entry (p, q) of the centred table: the entry less its column's mean. -/
theorem centred_apply (a : (⟨S100000x128, .f32⟩ : BufTy).Contents (Elt Ideal)) (p : Fin 100000) (q : Fin 128) :
    centred a (ix2 p q) = a (ix2 p q) - colMean a (ix1 q) := by
  unfold centred
  rw [subf_apply, downRows_apply]

/-- Column q's variance: the sum over the rows of the centred entries' squares, divided by the number of rows. -/
theorem colVar_apply (a : (⟨S100000x128, .f32⟩ : BufTy).Contents (Elt Ideal)) (q : Fin 128) :
    colVar a (ix1 q) = Ideal.div (Ideal.ofBits .f32 0x00000000#32 + ∑ k : Fin 100000, centred a (ix2 k q) * centred a (ix2 k q))
      (Ideal.ofBits .f32 0x47C35000#32) := by
  unfold colVar
  show Ideal.div (Host.reduceAdd (mulf (F := Ideal) (s := S100000x128) (φ := .f32) (centred a) (centred a))
      (constant (F := Ideal) S_ .f32 0x00000000#32) reducesTo_S100000x128_S128_d0 h_S_ (ix1 q))
    (broadcastInDim S128 ![] bcast_S_S128 (constant (F := Ideal) S_ .f32 0x47C35000#32) (ix1 q)) = _
  rw [colSum_apply, rowCount_apply]
  rfl

/-! ## Vectors laid out as rows -/

/-- Entry (0, q) of a vector of 128 entries laid out as a row: the vector's entry q. -/
theorem row128_apply (v : (⟨S128, .f32⟩ : BufTy).Contents (Elt Ideal)) (q : Fin 128) :
    row128 v (ix2 (0 : Fin 1) q) = v (ix1 q) := by
  unfold row128
  exact shapeCast_apply v shapeCasts_S128_S1x128 (ix2 (0 : Fin 1) q) (ix1 q)
    (by rewrite [Shape.rowMajor_val_one, Shape.rowMajor_val_two]; show q.val = 0 * 128 + q.val; omega)

/-- Entry (0, j) of a vector of 64 entries laid out as a row: the vector's entry j. -/
theorem row64_apply (u : (⟨S64, .f32⟩ : BufTy).Contents (Elt Ideal)) (j : Fin 64) :
    row64 u (ix2 (0 : Fin 1) j) = u (ix1 j) := by
  unfold row64
  exact shapeCast_apply u shapeCasts_S64_S1x64 (ix2 (0 : Fin 1) j) (ix1 j)
    (by rewrite [Shape.rowMajor_val_one, Shape.rowMajor_val_two]; show j.val = 0 * 64 + j.val; omega)

end Cert.KernelIdeal.StageReads

end
-- ==== Proof.AggReal.lean ====
/-
  A table of real numbers summed along the edges is again a table of real numbers: each entry of the result is zero
  plus a finite sum of entries of the table, and a finite sum of real numbers is real.
-/
import proofs.«110722_j39247411151461_1_alg».proof.Proof.Fold
import proofs.«110722_j39247411151461_1_alg».proof.Proof.LibEdgeRows
import proofs.«110722_j39247411151461_1_alg».proof.Proof.LibEdgeLinear
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StageReads

open Cert.KernelIdeal Cert.KernelIdeal.Gen Cert.KernelIdeal.Fold Idealize.ShloMosaic Idealize.ShloMosaic.ValueIdx

/-! ## A real table summed along the edges is real -/

/-- The sum of two real numbers, read in the extended reals, is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A finite sum of real numbers, read in the extended reals, is real. -/
theorem real_sum {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [Cert.LibEdgeLinear.coe_sum]; exact Finset.sum_congr rfl fun i _ => hg i⟩

/-- Entry (n, q) of a 100000 × 128 table summed along the edges is zero plus the sum, over the edges whose target is
    n, of the table's entry (the edge's source row, q): real when every entry of the table is. -/
theorem agg128_real (h : (⟨S100000x128, .f32⟩ : BufTy).Contents (Elt Ideal))
    (s d : (⟨S1600000, .i32⟩ : BufTy).Contents (Elt Ideal)) (hh : ∀ i, ∃ r : ℝ, h i = (r : EReal)) :
    ∀ i, ∃ r : ℝ, agg128 h s d i = (r : EReal) := by
  intro i
  obtain ⟨n, q, rfl⟩ : ∃ (n : Fin 100000) (q : Fin 128), i = ix2 n q := ⟨i 0, i 1, eq_ix2 i⟩
  have hsc : scatter_S100000x128_S1600000x1_S1600000x128_1_0_0_1
      = Cert.LibEdgeRows.rowScatterDims 100000 1600000 128 scatter_S100000x128_S1600000x1_S1600000x128_1_0_0_1_wf := rfl
  have hga : gather_S100000x128_S1600000x1_S1600000x128_1_0_n_n_0_1_1128
      = Cert.LibEdgeRows.rowGatherDims 100000 1600000 128 gather_S100000x128_S1600000x1_S1600000x128_1_0_n_n_0_1_1128_wf := rfl
  unfold agg128
  rw [hsc, hga, Host.scatterAdd, Ideal.hostScatterAdd_def, Cert.LibEdgeRows.scatterAdd_rows_apply]
  refine real_add ⟨0, ?_⟩ (real_sum _ _ fun e => ?_)
  · rw [broadcastInDim_apply _ bcast_S_S100000x128 _ (ix2 n q) (fun a => a.elim0) (fun a => a.elim0)]
    show Ideal.ofBits .f32 0x00000000#32 = _
    rw [Ideal.ofBits_zero_f32]
    exact EReal.coe_zero.symm
  · by_cases hc : (dstCol d (ix2 e (0 : Fin 1))).toInt = (n.val : Int)
    · rw [if_pos hc, Cert.LibEdgeRows.gather_rows_apply (show 0 < 100000 by decide)]
      exact hh _
    · rw [if_neg hc]
      exact ⟨0, EReal.coe_zero.symm⟩

end Cert.KernelIdeal.StageReads

end
-- ==== Proof.RefEntries.lean ====
/-
  The reference program read at an entry. The program multiplies the node features by a weight matrix, sums the
  products along the edges, adds a bias, centres every column by its mean over the 100000 rows, scales by the
  inverse square root of the column's variance plus a small constant, scales and shifts by two learned vectors
  and cuts off below at zero; after a second product and sum along the edges it adds a bias and divides every
  row by its Euclidean norm, the norm kept at or above a small floor. Here each of these steps is read at one
  entry (p, q) from the stage before it, down to the two sums along the edges, which stay as they are: the
  column's mean and variance as sums over the rows, the hidden layer's entry, the result's entry, and the two
  products as sums over the contracted index.
-/
import proofs.«110722_j39247411151461_1_alg».proof.Proof.Gen.ReferenceIdeal.Read
import proofs.«110722_j39247411151461_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Entries

open Cert.ReferenceIdeal Cert.ReferenceIdeal.Read Idealize.ShloMosaic Idealize.ShloMosaic.ValueIdx

variable (x0 : (⟨S100000x512, .f32⟩ : BufTy).Contents (Elt Ideal)) (x1 : (⟨S2x1600000, .i32⟩ : BufTy).Contents (Elt Ideal))
  (x2 : (⟨S512x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x6 x7 : (⟨S128, .f32⟩ : BufTy).Contents (Elt Ideal))

/-! ## The hidden layer: centred, scaled and cut off -/

/-- The biased aggregate at (p, q): the aggregate's entry plus the bias of column q. -/
theorem biased_entry (p : Fin 100000) (q : Fin 128) :
    val_main_v17 (F := Ideal) x0 x1 x2 x3 (ix2 p q) = val_main_v14 (F := Ideal) x0 x1 x2 (ix2 p q) + x3 (ix1 q) := by
  rw [val_main_v17_apply, val_main_v16_apply, val_main_v15_apply]
  have e : idx_main_v15 (idx_main_v16 (ix2 p q)) = ix1 q :=
    funext fun a => Fin.ext (by match a with | ⟨0, _⟩ => rfl)
  rw [e]
  exact Ideal.addf_def _ _

/-- the mean over the 100000 rows of column q of the biased aggregate -/
def meanAt (q : Fin 128) : EReal :=
  Ideal.div (Ideal.ofBits .f32 0x00000000#32 + ∑ k : Fin 100000, (val_main_v14 (F := Ideal) x0 x1 x2 (ix2 k q) + x3 (ix1 q)))
    (Ideal.ofBits .f32 0x47C35000#32)

/-- The mean stage read at column q is that mean. -/
theorem mean_entry (q : Fin 128) : val_main_v20 (F := Ideal) x0 x1 x2 x3 (ix1 q) = meanAt x0 x1 x2 x3 q := by
  rw [val_main_v20_apply, val_main_v18_apply, val_main_v19_apply, val_main_cst_2_apply, val_main_cst_1_apply]
  have e : ∀ k : Fin 100000, idx_main_v18 (ix1 q) k = ix2 k q := fun k =>
    funext fun a => Fin.ext (by match a with | ⟨0, _⟩ => rfl | ⟨1, _⟩ => rfl)
  unfold meanAt
  simp only [Ideal.hostDivf_def, Ideal.ofBits_def]
  refine congrArg (fun z => Ideal.div (Ideal.ofBits .f32 0x00000000#32 + z) (Ideal.ofBits .f32 0x47C35000#32))
    (Finset.sum_congr rfl fun k _ => ?_)
  rw [e k, biased_entry]

/-- The centred entry the variance is taken of: the biased aggregate less its column's mean. -/
theorem centred_entry (p : Fin 100000) (q : Fin 128) :
    val_main_v23 (F := Ideal) x0 x1 x2 x3 (ix2 p q)
      = (val_main_v14 (F := Ideal) x0 x1 x2 (ix2 p q) + x3 (ix1 q)) - meanAt x0 x1 x2 x3 q := by
  rw [val_main_v23_apply, val_main_v22_apply, val_main_v21_apply, biased_entry]
  have e : idx_main_v21 (idx_main_v22 (ix2 p q)) = ix1 q :=
    funext fun a => Fin.ext (by match a with | ⟨0, _⟩ => rfl)
  rw [e, mean_entry]
  exact Ideal.subf_def _ _

/-- The centred entry that is scaled: the same difference, the mean broadcast a second time. -/
theorem centred_entry' (p : Fin 100000) (q : Fin 128) :
    val_main_v30 (F := Ideal) x0 x1 x2 x3 (ix2 p q)
      = (val_main_v14 (F := Ideal) x0 x1 x2 (ix2 p q) + x3 (ix1 q)) - meanAt x0 x1 x2 x3 q := by
  rw [val_main_v30_apply, val_main_v29_apply, val_main_v28_apply, biased_entry]
  have e : idx_main_v28 (idx_main_v29 (ix2 p q)) = ix1 q :=
    funext fun a => Fin.ext (by match a with | ⟨0, _⟩ => rfl)
  rw [e, mean_entry]
  exact Ideal.subf_def _ _

/-- the variance of that column -/
def varAt (q : Fin 128) : EReal :=
  Ideal.div (Ideal.ofBits .f32 0x00000000#32 + ∑ k : Fin 100000,
      ((val_main_v14 (F := Ideal) x0 x1 x2 (ix2 k q) + x3 (ix1 q)) - meanAt x0 x1 x2 x3 q)
        * ((val_main_v14 (F := Ideal) x0 x1 x2 (ix2 k q) + x3 (ix1 q)) - meanAt x0 x1 x2 x3 q))
    (Ideal.ofBits .f32 0x47C35000#32)

/-- The variance stage read at column q is that variance. -/
theorem var_entry (q : Fin 128) : val_main_v27 (F := Ideal) x0 x1 x2 x3 (ix1 q) = varAt x0 x1 x2 x3 q := by
  rw [val_main_v27_apply, val_main_v25_apply, val_main_v26_apply, val_main_cst_4_apply, val_main_cst_3_apply]
  have e : ∀ k : Fin 100000, idx_main_v25 (ix1 q) k = ix2 k q := fun k =>
    funext fun a => Fin.ext (by match a with | ⟨0, _⟩ => rfl | ⟨1, _⟩ => rfl)
  unfold varAt
  simp only [Ideal.hostDivf_def, Ideal.ofBits_def]
  refine congrArg (fun z => Ideal.div (Ideal.ofBits .f32 0x00000000#32 + z) (Ideal.ofBits .f32 0x47C35000#32))
    (Finset.sum_congr rfl fun k _ => ?_)
  rw [e k, val_main_v24_apply, centred_entry]
  exact Ideal.mulf_def _ _

/-- The hidden layer at (p, q): the centred entry times the inverse square root of the column's variance plus the
    small constant, scaled and shifted by the two learned vectors, cut off below at zero. -/
theorem hidden_entry (p : Fin 100000) (q : Fin 128) :
    val_main_v43 (F := Ideal) x0 x1 x2 x3 x6 x7 (ix2 p q)
      = max ((((val_main_v14 (F := Ideal) x0 x1 x2 (ix2 p q) + x3 (ix1 q)) - meanAt x0 x1 x2 x3 q)
          * Ideal.rsqrt (varAt x0 x1 x2 x3 q + Ideal.ofBits .f32 0x3727C5AC#32)) * x6 (ix1 q) + x7 (ix1 q))
          (Ideal.ofBits .f32 0x00000000#32) := by
  rw [val_main_v43_apply, val_main_v42_apply, val_main_v39_apply, val_main_v36_apply, centred_entry',
    val_main_v35_apply, val_main_v34_apply, val_main_v33_apply, val_main_v32_apply, val_main_v31_apply,
    val_main_cst_5_apply, val_main_v38_apply, val_main_v37_apply, val_main_v41_apply, val_main_v40_apply,
    val_main_call0_v0_apply, val_main_call0_cst_apply]
  have e1 : idx_main_v34 (idx_main_v35 (ix2 p q)) = ix1 q :=
    funext fun a => Fin.ext (by match a with | ⟨0, _⟩ => rfl)
  have e2 : idx_main_v37 (idx_main_v38 (ix2 p q)) = ix1 q :=
    funext fun a => Fin.ext (by match a with | ⟨0, _⟩ => rfl)
  have e3 : idx_main_v40 (idx_main_v41 (ix2 p q)) = ix1 q :=
    funext fun a => Fin.ext (by match a with | ⟨0, _⟩ => rfl)
  rw [e1, e2, e3, var_entry]
  simp only [Ideal.maximumf_def, Ideal.addf_def, Ideal.mulf_def, Ideal.hostUnary_rsqrt_def, Ideal.ofBits_def]

/-! ## The result: rows divided by their norms -/

/-- The biased second aggregate at (p, q): the aggregate's entry plus the bias of column q. -/
theorem out_biased_entry (p : Fin 100000) (q : Fin 64) :
    val_main_v57 (F := Ideal) x0 x1 x2 x3 x4 x5 x6 x7 (ix2 p q)
      = val_main_v54 (F := Ideal) x0 x1 x2 x3 x4 x6 x7 (ix2 p q) + x5 (ix1 q) := by
  rw [val_main_v57_apply, val_main_v56_apply, val_main_v55_apply]
  have e : idx_main_v55 (idx_main_v56 (ix2 p q)) = ix1 q :=
    funext fun a => Fin.ext (by match a with | ⟨0, _⟩ => rfl)
  rw [e]
  exact Ideal.addf_def _ _

/-- The result at (p, q): the biased entry divided by the larger of the small floor and the square root of the sum
    of the squares of row p's 64 biased entries. -/
theorem result_entry (p : Fin 100000) (q : Fin 64) :
    val_main_v62 (F := Ideal) x0 x1 x2 x3 x4 x5 x6 x7 (ix2 p q)
      = Ideal.div (val_main_v54 (F := Ideal) x0 x1 x2 x3 x4 x6 x7 (ix2 p q) + x5 (ix1 q))
          (max (Ideal.sqrt (Ideal.ofBits .f32 0x00000000#32 + ∑ k : Fin 64,
              (val_main_v54 (F := Ideal) x0 x1 x2 x3 x4 x6 x7 (ix2 p k) + x5 (ix1 k))
                * (val_main_v54 (F := Ideal) x0 x1 x2 x3 x4 x6 x7 (ix2 p k) + x5 (ix1 k))))
            (Ideal.ofBits .f32 0x2B8CBCCC#32)) := by
  rw [val_main_v62_apply, out_biased_entry, val_main_v61_apply, val_main_v60_apply, val_main_v58_apply,
    val_main_call1_v2_apply, val_main_call1_v1_apply, val_main_call1_cst_apply, val_main_v59_apply,
    val_main_cst_9_apply]
  have e : ∀ k : Fin 64, idx_main_call1_v1 (idx_main_call1_v2 (idx_main_v61 (ix2 p q))) k = ix2 p k := fun k =>
    funext fun a => Fin.ext (by match a with | ⟨0, _⟩ => rfl | ⟨1, _⟩ => rfl)
  simp only [Ideal.hostDivf_def, Ideal.maximumf_def, Ideal.hostUnary_sqrt_def, Ideal.ofBits_def]
  refine congrArg (fun z => Ideal.div (val_main_v54 (F := Ideal) x0 x1 x2 x3 x4 x6 x7 (ix2 p q) + x5 (ix1 q))
    (max (Ideal.sqrt (Ideal.ofBits .f32 0x00000000#32 + z)) (Ideal.ofBits .f32 0x2B8CBCCC#32)))
    (Finset.sum_congr rfl fun k _ => ?_)
  rw [e k, val_main_call1_v0_apply, out_biased_entry]
  exact Ideal.mulf_def _ _

/-! ## The two products -/

/-- The first product at (p, q): the sum over the 512 features of the node's feature times the weight. -/
theorem dot1_entry (p : Fin 100000) (q : Fin 128) :
    val_main_v4 (F := Ideal) x0 x2 (ix2 p q) = Cert.Gcn.dotAt (A := 100000) (K := 512) (B := 128) x0 x2 p q := by
  rw [val_main_v4_apply]
  unfold Cert.Gcn.dotAt
  refine Finset.sum_congr rfl fun k _ => ?_
  have el : lidx_main_v4 (ix2 p q) k = ix2 p k :=
    funext fun a => Fin.ext (by match a with | ⟨0, _⟩ => rfl | ⟨1, _⟩ => rfl)
  have er : ridx_main_v4 (ix2 p q) k = ix2 k q :=
    funext fun a => Fin.ext (by match a with | ⟨0, _⟩ => rfl | ⟨1, _⟩ => rfl)
  rw [el, er]

/-- The second product at (p, q): the sum over the 128 hidden columns of the hidden layer's entry times the weight. -/
theorem dot2_entry (p : Fin 100000) (q : Fin 64) :
    val_main_v44 (F := Ideal) x0 x1 x2 x3 x4 x6 x7 (ix2 p q)
      = Cert.Gcn.dotAt (A := 100000) (K := 128) (B := 64) (val_main_v43 (F := Ideal) x0 x1 x2 x3 x6 x7) x4 p q := by
  rw [val_main_v44_apply]
  unfold Cert.Gcn.dotAt
  refine Finset.sum_congr rfl fun k _ => ?_
  have el : lidx_main_v44 (ix2 p q) k = ix2 p k :=
    funext fun a => Fin.ext (by match a with | ⟨0, _⟩ => rfl | ⟨1, _⟩ => rfl)
  have er : ridx_main_v44 (ix2 p q) k = ix2 k q :=
    funext fun a => Fin.ext (by match a with | ⟨0, _⟩ => rfl | ⟨1, _⟩ => rfl)
  rw [el, er]

end Cert.ReferenceIdeal.Entries

end
-- ==== Proof.MeanShift.lean ====
/-
  The mean of a shifted column is the shifted mean — over the reals, read in the extended reals.

  A column of n = 100000 real numbers a(k) has mean μ = (Σ a(k)) / n. Adding one real number b to every entry adds b
  to the mean: (Σ (a(k) + b)) / n = (Σ a(k) + n·b) / n = μ + b. So centring the shifted column by its own mean
  gives back the centred column: (a(k) + b) − (μ + b) = a(k) − μ, and with it the same variance.

  Over the extended reals these laws need the entries to be real numbers: a quotient of a sum does not split over an
  infinite term. The quotient by the word of 100000 is the product with the real 1/100000, the word of zero is 0, and
  a finite sum of reals read in the extended reals is the real sum read there; the rest is arithmetic in ℝ.
-/
import proofs.«110722_j39247411151461_1_alg».proof.Proof.LibEdgeLinear
import Idealize.ShloMosaic.PureOps.Ideal.Laws

noncomputable section

namespace Cert.MeanShift

open Idealize.ShloMosaic
open scoped BigOperators

/-- The zero word denotes 0. -/
theorem zero_word : Ideal.ofBits .f32 0x00000000#32 = 0 := by
  simp [Ideal.ofBits, Ideal.ieee]

/-- The word 0x47C35000 denotes the real number 100000. -/
theorem count_word : Ideal.ofBits .f32 0x47C35000#32 = ((100000 : ℝ) : EReal) := by
  simp [Ideal.ofBits, Ideal.ieee, -EReal.coe_mul]; norm_num

/-- The mean of n = 100000 real entries is a real number: their sum over 100000. -/
theorem mean_coe {n : Nat} (a : Fin n → ℝ) :
    Ideal.div (Ideal.ofBits .f32 0x00000000#32 + ∑ k, (a k : EReal)) (Ideal.ofBits .f32 0x47C35000#32)
      = (((∑ k, a k) * (1 / 100000) : ℝ) : EReal) := by
  rw [zero_word, count_word, Ideal.div_coe (by norm_num), zero_add, ← Cert.LibEdgeLinear.coe_sum, ← EReal.coe_mul]

/-- THE LAW: the mean of the column shifted by b is the column's mean plus b. -/
theorem mean_shift {n : Nat} (hn : (n : ℝ) = 100000) (a : Fin n → ℝ) (b : ℝ) :
    Ideal.div (Ideal.ofBits .f32 0x00000000#32 + ∑ k, ((a k : EReal) + (b : EReal))) (Ideal.ofBits .f32 0x47C35000#32)
      = Ideal.div (Ideal.ofBits .f32 0x00000000#32 + ∑ k, (a k : EReal)) (Ideal.ofBits .f32 0x47C35000#32) + (b : EReal) := by
  have h1 : (∑ k, ((a k : EReal) + (b : EReal))) = ((∑ k, (a k + b) : ℝ) : EReal) := by
    rw [Cert.LibEdgeLinear.coe_sum]; simp only [EReal.coe_add]
  rw [mean_coe, zero_word, count_word, Ideal.div_coe (by norm_num), zero_add, h1, ← EReal.coe_mul, ← EReal.coe_add]
  congr 1
  rw [Finset.sum_add_distrib, Finset.sum_const, Finset.card_univ, Fintype.card_fin, nsmul_eq_mul, hn]
  ring

/-- An entry and a mean shifted by the same real number differ by what they differed by before. -/
theorem centre_cancel (a b μ : ℝ) :
    ((a : EReal) + (b : EReal)) - ((μ : EReal) + (b : EReal)) = (a : EReal) - (μ : EReal) := by
  rw [← EReal.coe_add, ← EReal.coe_add, ← EReal.coe_sub, ← EReal.coe_sub]
  congr 1
  ring

end Cert.MeanShift

end
-- ==== Proof.Bridge.lean ====
/-
  The reference's result is the kernel program's result, as functions of the argument arrays.

  Stage by stage, outermost last:
  • both first products are the same sum over k, so the first aggregates (the same edge sum) are equal;
  • the hidden layer: the reference centres the biased aggregate by its own column mean, the kernel program centres
    it by the unbiased aggregate's column mean shifted by the bias. For real entries the two means are one number
    (the mean of a column shifted by b is the column's mean plus b), so the centred entries agree, and so do the
    variances, each term being (a + b) − (μ + b) = a − μ. The first aggregate's entries are real because the
    features and the first weights are, products and finite sums of reals being real; the bias is real;
  • the second products, the second aggregates and the rows divided by their norms are then the same operations on
    equal operands, read at an entry on both sides.
-/
import proofs.«110722_j39247411151461_1_alg».proof.Proof.BridgeEdges
import proofs.«110722_j39247411151461_1_alg».proof.Proof.StageReads
import proofs.«110722_j39247411151461_1_alg».proof.Proof.AggReal
import proofs.«110722_j39247411151461_1_alg».proof.Proof.RefEntries
import proofs.«110722_j39247411151461_1_alg».proof.Proof.MeanShift
import proofs.«110722_j39247411151461_1_alg».proof.Proof.LibEdgeLinear
import Idealize.ShloMosaic.Lib.ValueIdx
import Idealize.ShloMosaic.PureOps.Ideal.Laws

set_option maxRecDepth 16384

noncomputable section

namespace Cert.Bridge

open Idealize.ShloMosaic Idealize.ShloMosaic.ValueIdx
open Cert.ReferenceIdeal.Read Cert.ReferenceIdeal.Entries Cert.KernelIdeal.Fold Cert.KernelIdeal.StageReads

/-- A product of two tables of real numbers is a table of real numbers. -/
theorem dot_real {A K B : Nat} (x : Cert.Gcn.Tab A K) (w : Cert.Gcn.Tab K B)
    (hx : ∀ i, ∃ r : ℝ, x i = (r : EReal)) (hw : ∀ i, ∃ r : ℝ, w i = (r : EReal)) (i : (⟨2, ![A, B]⟩ : Shape).Idx) :
    ∃ r : ℝ, Cert.Gcn.tab (Cert.Gcn.dotAt x w) i = (r : EReal) := by
  choose x' hx' using hx
  choose w' hw' using hw
  refine ⟨∑ k : Fin K, x' (ix2 ⟨(i 0).val, idx2_lt0 i⟩ k) * w' (ix2 k ⟨(i 1).val, idx2_lt1 i⟩), ?_⟩
  rw [Cert.Gcn.tab_apply, Cert.LibEdgeLinear.coe_sum]
  unfold Cert.Gcn.dotAt
  refine Finset.sum_congr rfl fun k _ => ?_
  rw [hx', hw', EReal.coe_mul]

variable (x0 : (⟨Cert.KernelIdeal.S100000x512, .f32⟩ : BufTy).Contents (Elt Ideal)) (x1 : (⟨Cert.KernelIdeal.S2x1600000, .i32⟩ : BufTy).Contents (Elt Ideal)) (x2 : (⟨Cert.KernelIdeal.S512x128, .f32⟩ : BufTy).Contents (Elt Ideal))
  (x3 : (⟨Cert.KernelIdeal.S128, .f32⟩ : BufTy).Contents (Elt Ideal)) (x4 : (⟨Cert.KernelIdeal.S128x64, .f32⟩ : BufTy).Contents (Elt Ideal)) (x5 : (⟨Cert.KernelIdeal.S64, .f32⟩ : BufTy).Contents (Elt Ideal)) (x6 x7 : (⟨Cert.KernelIdeal.S128, .f32⟩ : BufTy).Contents (Elt Ideal))

/-! ## The first layer -/

theorem dot1_eq : val_main_v4 (F := Ideal) x0 x2 = Cert.Gcn.tab (Cert.Gcn.dotAt (A := 100000) (K := 512) (B := 128) x0 x2) := by
  funext i
  obtain ⟨p, q, rfl⟩ : ∃ (p : Fin 100000) (q : Fin 128), i = ix2 p q := ⟨i 0, i 1, eq_ix2 i⟩
  rw [dot1_entry, Cert.Gcn.tab_ix2]

theorem layer1_eq : val_main_v14 (F := Ideal) x0 x1 x2 = layer1 x0 x1 x2 := by
  rw [agg1_eq, dot1_eq]
  rfl

/-- The first aggregate's entries are real numbers when the features and the first weights are. -/
theorem layer1_real (hx0 : ∀ i, ∃ r : ℝ, x0 i = (r : EReal)) (hx2 : ∀ i, ∃ r : ℝ, x2 i = (r : EReal)) :
    ∀ i, ∃ r : ℝ, layer1 x0 x1 x2 i = (r : EReal) :=
  agg128_real _ _ _ (dot_real (A := 100000) (K := 512) (B := 128) x0 x2 hx0 hx2)

/-! ## The hidden layer: the one law -/

theorem hidden_eq (hx0 : ∀ i, ∃ r : ℝ, x0 i = (r : EReal)) (hx2 : ∀ i, ∃ r : ℝ, x2 i = (r : EReal))
    (hx3 : ∀ i, ∃ r : ℝ, x3 i = (r : EReal)) :
    val_main_v43 (F := Ideal) x0 x1 x2 x3 x6 x7 = hidden x0 x1 x2 x3 x6 x7 := by
  funext i
  obtain ⟨p, q, rfl⟩ : ∃ (p : Fin 100000) (q : Fin 128), i = ix2 p q := ⟨i 0, i 1, eq_ix2 i⟩
  obtain ⟨b, hb⟩ := hx3 (ix1 q)
  choose a ha using fun k : Fin 100000 => layer1_real x0 x1 x2 hx0 hx2 (ix2 k q)
  -- the unbiased column's mean is a real number
  have hm : colMean (layer1 x0 x1 x2) (ix1 q) = (((∑ k, a k) * (1 / 100000) : ℝ) : EReal) := by
    rw [colMean_apply]
    simp only [ha]
    exact Cert.MeanShift.mean_coe a
  -- the biased column's mean is the unbiased column's mean plus the bias
  have hμ : meanAt x0 x1 x2 x3 q = colMean (layer1 x0 x1 x2) (ix1 q) + x3 (ix1 q) := by
    unfold meanAt
    rw [layer1_eq, colMean_apply, hb]
    simp only [ha]
    exact Cert.MeanShift.mean_shift (by norm_num) a b
  -- so the variances agree term by term
  have hσ : varAt x0 x1 x2 x3 q = colVar (layer1 x0 x1 x2) (ix1 q) := by
    unfold varAt
    rw [hμ, colVar_apply, layer1_eq]
    refine congrArg (fun s => Ideal.div (Ideal.ofBits .f32 0x00000000#32 + s) (Ideal.ofBits .f32 0x47C35000#32))
      (Finset.sum_congr rfl fun k _ => ?_)
    rw [centred_apply, hm, ha k, hb, Cert.MeanShift.centre_cancel]
  rw [hidden_entry, hμ, hσ, layer1_eq]
  show _ = Cert.Gcn.tab (Cert.Gcn.bnReluAt (A := 100000) (C := 128) (layer1 x0 x1 x2) (row128 x3) (row128 x6) (row128 x7)
    (row128 (addf (F := Ideal) (s := Cert.KernelIdeal.S128) (φ := .f32) (colMean (layer1 x0 x1 x2)) x3))
    (row128 (colVar (layer1 x0 x1 x2)))) (ix2 p q)
  rw [Cert.Gcn.tab_ix2]
  unfold Cert.Gcn.bnReluAt
  simp only [row128_apply]
  rfl

/-! ## The second layer and the result -/

theorem dot2_eq (hx0 : ∀ i, ∃ r : ℝ, x0 i = (r : EReal)) (hx2 : ∀ i, ∃ r : ℝ, x2 i = (r : EReal))
    (hx3 : ∀ i, ∃ r : ℝ, x3 i = (r : EReal)) :
    val_main_v44 (F := Ideal) x0 x1 x2 x3 x4 x6 x7
      = Cert.Gcn.tab (Cert.Gcn.dotAt (A := 100000) (K := 128) (B := 64) (hidden x0 x1 x2 x3 x6 x7) x4) := by
  funext i
  obtain ⟨p, q, rfl⟩ : ∃ (p : Fin 100000) (q : Fin 64), i = ix2 p q := ⟨i 0, i 1, eq_ix2 i⟩
  rw [dot2_entry, hidden_eq x0 x1 x2 x3 x6 x7 hx0 hx2 hx3, Cert.Gcn.tab_ix2]

theorem layer2_eq (hx0 : ∀ i, ∃ r : ℝ, x0 i = (r : EReal)) (hx2 : ∀ i, ∃ r : ℝ, x2 i = (r : EReal))
    (hx3 : ∀ i, ∃ r : ℝ, x3 i = (r : EReal)) :
    val_main_v54 (F := Ideal) x0 x1 x2 x3 x4 x6 x7 = layer2 x0 x1 x2 x3 x4 x6 x7 := by
  rw [agg2_eq, dot2_eq x0 x1 x2 x3 x4 x6 x7 hx0 hx2 hx3]
  rfl

/-- THE BRIDGE: the reference's result is `result` of the argument arrays. -/
theorem result_eq (hx0 : ∀ i, ∃ r : ℝ, x0 i = (r : EReal)) (hx2 : ∀ i, ∃ r : ℝ, x2 i = (r : EReal))
    (hx3 : ∀ i, ∃ r : ℝ, x3 i = (r : EReal)) :
    val_main_v62 (F := Ideal) x0 x1 x2 x3 x4 x5 x6 x7 = result x0 x1 x2 x3 x4 x5 x6 x7 := by
  funext i
  obtain ⟨p, q, rfl⟩ : ∃ (p : Fin 100000) (q : Fin 64), i = ix2 p q := ⟨i 0, i 1, eq_ix2 i⟩
  rw [result_entry, layer2_eq x0 x1 x2 x3 x4 x6 x7 hx0 hx2 hx3]
  show _ = Cert.Gcn.tab (Cert.Gcn.unitRowAt (A := 100000) (C := 64) (layer2 x0 x1 x2 x3 x4 x6 x7) (row64 x5)) (ix2 p q)
  rw [Cert.Gcn.tab_ix2]
  unfold Cert.Gcn.unitRowAt
  simp only [row64_apply]

end Cert.Bridge

end
-- ==== Proof.LibFiniteTest.lean ====
/-
  The elementwise finiteness test, read over the extended reals — a general module: it depends only on the ideal
  float instance.

  A precondition "every entry is finite" compares |x| with the f32 word of +∞, 0x7F800000, entry by entry, and reduces
  the one-bit answers by "and". Over the extended reals |x| = max x (−x), the word denotes +∞ (`inf_word`), and
  |x| < +∞ holds exactly when x is neither infinity; so an entry that passes the test is a real number
  (`real_of_test`). A one-bit word made from a Boolean is 1 only for true (`true_of_ofBool_one`).
-/
import Idealize.ShloMosaic.PureOps.Ideal.Laws

noncomputable section

namespace Cert.LibFiniteTest

open Idealize.ShloMosaic

/-- The f32 word 0x7F800000 is +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ q : ℝ, x = (q : EReal) := by
  induction x using EReal.rec with
  | bot => simp at h
  | coe q => exact ⟨q, rfl⟩
  | top => simp at h

/-- A one-bit word made from a Boolean is 1 only for true. -/
theorem true_of_ofBool_one {b : Bool} (h : BitVec.ofBool b = 1#1) : b = true := by
  cases b
  · exact absurd h (by decide)
  · rfl

/-- The elementwise test |x| < +∞ against the word of +∞, passed, gives a real number. -/
theorem real_of_test (x : EReal) (h : Ideal.cmp .olt (max x (-x)) (Ideal.ofBits .f32 0x7F800000#32) = 1#1) :
    ∃ q : ℝ, x = (q : EReal) := by
  rw [inf_word] at h
  exact real_of_abs_lt_top x (of_decide_eq_true (true_of_ofBool_one h))

end Cert.LibFiniteTest

end
-- ==== Proof.Finite.lean ====
/-
  From the precondition to real numbers.

  The precondition tests every float argument entry by entry: |x| below +∞, the one-bit answers reduced by "and" over
  each array and the seven arrays' answers joined by "and". Where it answers 1 every joined answer is 1, so every
  entry of every tested array passes its test, and an extended real whose absolute value is below +∞ is a real
  number. Read here for the three arrays whose finiteness the proof uses: the features, the first weight matrix and
  the first bias.
-/
import proofs.«110722_j39247411151461_1_alg».proof.Pre_finite_inputs
import proofs.«110722_j39247411151461_1_alg».proof.Proof.LibFiniteTest
import Idealize.ShloMosaic.Lib.ReduceAll
import Idealize.ShloMosaic.Lib.Affine
import Idealize.ShloMosaic.Lib.ValueIdx
import Idealize.ShloMosaic.PureOps.Ideal.Laws

set_option maxRecDepth 16384

noncomputable section

namespace Cert.FiniteInputs

open Idealize.ShloMosaic Cert.Pre_finite_inputs

/-- The shape with no axes has one index. -/
instance : Subsingleton S_.Idx := ⟨fun a b => funext fun d => d.elim0⟩

/-- An array whose entries all pass the test |x| < +∞ holds real numbers. -/
theorem real_of_all {s : Shape} (x : FVec Ideal s .f32) {dims : Fin S_.rank → Fin s.rank} (hb : S_.BroadcastsInDim s dims)
    {axes : List (Fin s.rank)} (hr : s.ReducesTo axes S_) (hu : 0 < S_.numel)
    (e : Host.reduce IntOp.andi (cmpf .olt (Host.absf x) (broadcastInDim s dims hb (constant (F := Ideal) S_ .f32 0x7F800000#32)))
      (constantI S_ 1 1#1) hr hu ValueIdx.ix0 = 1#1) (i : s.Idx) : ∃ r : ℝ, x i = (r : EReal) :=
  Cert.LibFiniteTest.real_of_test (x i) (Host.reduce_andi_all _ _ hr hu ValueIdx.ix0 e i)

variable [Cert.Pre_finite_inputs.Facts]

/-- Where the precondition holds, the features, the first weight matrix and the first bias hold real numbers. -/
theorem reals_of_pre (x0 : FVec Ideal S100000x512 .f32) (x1 : IVec S2x1600000 32) (x2 : FVec Ideal S512x128 .f32)
    (x3 : FVec Ideal S128 .f32) (x4 : FVec Ideal S128x64 .f32) (x5 : FVec Ideal S64 .f32) (x6 x7 : FVec Ideal S128 .f32)
    (h : Cert.Pre_finite_inputs.fn (F := Ideal) x0 x1 x2 x3 x4 x5 x6 x7 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h1, -⟩ := IntOp.andi_eq_one.mp h0
  obtain ⟨h2, -⟩ := IntOp.andi_eq_one.mp h1
  obtain ⟨h3, -⟩ := IntOp.andi_eq_one.mp h2
  obtain ⟨h4, -⟩ := IntOp.andi_eq_one.mp h3
  obtain ⟨h5, e3⟩ := IntOp.andi_eq_one.mp h4
  obtain ⟨e0, e2⟩ := IntOp.andi_eq_one.mp h5
  exact ⟨real_of_all x0 _ _ _ e0, real_of_all x2 _ _ _ e2, real_of_all x3 _ _ _ e3⟩

end Cert.FiniteInputs

end
-- ==== Proof.lean ====
/-
  A two-layer graph convolution in four tiled kernels, against its plain reference, over the extended reals.

  Both programs multiply the node features by a weight matrix, sum the products along the edges into each edge's
  target node, add a bias, normalise every feature column by its mean and variance over the nodes, cut off at zero,
  do the product and the edge sum again, and divide every node's row by its Euclidean norm. The kernel does the two
  products, the normalisation and the final division in tiled regions, and it computes the column means of the
  UNBIASED aggregate and shifts them by the bias afterwards; the reference takes the means of the biased aggregate.

  The two agree at the exact values because, for real entries, the mean of a column shifted by b is the column's mean
  plus b, so the centred entries and with them the variances are the same numbers. That law needs real entries: the
  precondition makes the features, the first weights and the first bias finite, and products and finite sums of reals
  are real, so the first aggregate is real. Everything else is the same operation on equal operands.

  The frames are the generated ones; the reference's run is its generated run; the ideal pass rewrote nothing, so
  there is nothing to preserve. The kernel's value is read off its generated frame: the run with the result array
  named, the fold through the program to the launch arrays, and one fact per region.
-/
import proofs.«110722_j39247411151461_1_alg».proof.Defs
import proofs.«110722_j39247411151461_1_alg».proof.Proof.Gen.Kernel
import proofs.«110722_j39247411151461_1_alg».proof.Proof.Gen.Kernel.Skeleton
import proofs.«110722_j39247411151461_1_alg».proof.Proof.Gen.Kernel.Launch
import proofs.«110722_j39247411151461_1_alg».proof.Proof.Gen.Kernel.Points
import proofs.«110722_j39247411151461_1_alg».proof.Proof.Gen.Kernel.Frame
import proofs.«110722_j39247411151461_1_alg».proof.Proof.Gen.KernelIdeal
import proofs.«110722_j39247411151461_1_alg».proof.Proof.Gen.KernelIdeal.Skeleton
import proofs.«110722_j39247411151461_1_alg».proof.Proof.Gen.KernelIdeal.Launch
import proofs.«110722_j39247411151461_1_alg».proof.Proof.Gen.KernelIdeal.Points
import proofs.«110722_j39247411151461_1_alg».proof.Proof.Gen.KernelIdeal.Frame
import proofs.«110722_j39247411151461_1_alg».proof.Proof.Gen.ReferenceIdeal
import proofs.«110722_j39247411151461_1_alg».proof.Proof.Gen.ReferenceIdeal.Read
import proofs.«110722_j39247411151461_1_alg».proof.Proof.Gen.Pre_finite_inputs
import proofs.«110722_j39247411151461_1_alg».proof.Proof.KernelValue
import proofs.«110722_j39247411151461_1_alg».proof.Proof.Bridge
import proofs.«110722_j39247411151461_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result array at the same function of the
    arguments: the kernel's by its value run, the reference's by its run and the bridge between the two functions,
    whose one law the precondition's finiteness licenses. -/
theorem algebraic : Cert.algebraic_KernelIdeal_ReferenceIdeal := by
  intro m ρ m' ρ' hpre hagree
  refine ⟨fun c => Cert.KernelIdeal.Fold.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  obtain ⟨hx0, hx2, hx3⟩ := Cert.FiniteInputs.reals_of_pre _ _ _ _ _ _ _ _ (hpre c)
  rw [Cert.ReferenceIdeal.Read.val_main_v62_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.Bridge.result_eq _ _ _ _ _ _ _ _ hx0 hx2 hx3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
